-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x30x512 : Shape := ⟨3, ![8192, 30, 512]⟩
abbrev S3 : Shape := ⟨1, ![3]⟩
abbrev S1024x1536 : Shape := ⟨2, ![1024, 1536]⟩
abbrev S1x1024 : Shape := ⟨2, ![1, 1024]⟩
abbrev S_ : Shape := ⟨0, ![]⟩

class Facts : Prop where
  bcast_S_S8192x30x512 : S_.BroadcastsInDim S8192x30x512 (![] : Fin 0 → Fin S8192x30x512.rank)
  reducesTo_S8192x30x512_S_d0_1_2 : S8192x30x512.ReducesTo [0, 1, 2] S_
  h_S_ : 0 < S_.numel
  bcast_S_S3 : S_.BroadcastsInDim S3 (![] : Fin 0 → Fin S3.rank)
  reducesTo_S3_S_d0 : S3.ReducesTo [0] S_
  bcast_S_S1024x1536 : S_.BroadcastsInDim S1024x1536 (![] : Fin 0 → Fin S1024x1536.rank)
  reducesTo_S1024x1536_S_d0_1 : S1024x1536.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024x1536 1) : IVec S_ 1 :=
  let main_c_5 : IVec S_ 1 := constantI S_ 1 1#1
  let main_v17 : IVec S_ 1 := (fun x v => Host.reduce IntOp.andi x v reducesTo_S1024x1536_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x30x512 .f32) (main_arg1 : FVec F S3 .f32) (main_arg2 : FVec F S3 .f32) (main_arg3 : FVec F S1024x1536 .f32) (main_arg4 : FVec F S1x1024 .f32) : IVec S_ 1 :=
  let main_v0 : FVec F S8192x30x512 .f32 := Host.absf main_arg0
  let main_cst : FVec F S_ .f32 := constant S_ .f32 0x7F800000#32
  let main_v1 : FVec F S8192x30x512 .f32 := broadcastInDim S8192x30x512 ![] bcast_S_S8192x30x512 main_cst
  let main_v2 : IVec S8192x30x512 1 := cmpf .olt main_v0 main_v1
  let main_c : IVec S_ 1 := constantI S_ 1 1#1
  let main_v3 : IVec S_ 1 := (fun x v => Host.reduce IntOp.andi x v reducesTo_S8192x30x512_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S1024x1536 .f32 := Host.absf main_arg3
  let main_cst_4 : FVec F S_ .f32 := constant S_ .f32 0x7F800000#32
  let main_v15 : FVec F S1024x1536 .f32 := broadcastInDim S1024x1536 ![] bcast_S_S1024x1536 main_cst_4
  let main_v16 : IVec S1024x1536 1 := cmpf .olt main_v14 main_v15
  fn_part1 (F := F) main_arg4 main_v13 main_v16
-- ==== Kernel.lean ====
abbrev S8192x30x512 : Shape := ⟨3, ![8192, 30, 512]⟩
abbrev S3 : Shape := ⟨1, ![3]⟩
abbrev S1024x1536 : Shape := ⟨2, ![1024, 1536]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩
abbrev S8192x1 : Shape := ⟨2, ![8192, 1]⟩
abbrev S128x30x512 : Shape := ⟨3, ![128, 30, 512]⟩
abbrev S128x1 : Shape := ⟨2, ![128, 1]⟩
abbrev S1 : Shape := ⟨1, ![1]⟩
abbrev S128x1x512 : Shape := ⟨3, ![128, 1, 512]⟩
abbrev S128x512 : Shape := ⟨2, ![128, 512]⟩
abbrev S128x1024 : Shape := ⟨2, ![128, 1024]⟩
abbrev S8192 : Shape := ⟨1, ![8192]⟩

abbrev nBuf : Space → Nat
  | .hbm => 18
  | .vmem => 10
  | .smem => 0
  | _ => 0

abbrev bufTy : (tb : Table) → Fin (tcTables nBuf tb) → BufTy
  | .hbm, ⟨0, _⟩ => ⟨S8192x30x512, .f32⟩
  | .hbm, ⟨1, _⟩ => ⟨S3, .f32⟩
  | .hbm, ⟨2, _⟩ => ⟨S3, .f32⟩
  | .hbm, ⟨3, _⟩ => ⟨S1024x1536, .f32⟩
  | .hbm, ⟨4, _⟩ => ⟨S1x1024, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S1024x1, .f32⟩
  | .hbm, ⟨15, _⟩ => ⟨S1024x1, .bf16⟩
  | .hbm, ⟨16, _⟩ => ⟨S8192x1, .f32⟩
  | .hbm, ⟨17, _⟩ => ⟨S8192, .f32⟩
  | .local _ .vmem, ⟨0, _⟩ => ⟨S128x30x512, .f32⟩
  | .local _ .vmem, ⟨1, _⟩ => ⟨S128x30x512, .f32⟩
  | .local _ .vmem, ⟨2, _⟩ => ⟨S3, .f32⟩
  | .local _ .vmem, ⟨3, _⟩ => ⟨S3, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1, .bf16⟩
  | .local _ .vmem, ⟨8, _⟩ => ⟨S128x1, .f32⟩
  | .local _ .vmem, ⟨9, _⟩ => ⟨S128x1, .f32⟩
  | _, _ => ⟨S8192x30x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x30x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x1536_S1024x512_0_0 : S1024x1536.Slices ![0, 0] S1024x512
  transposes_S1024x512_S512x1024_1_0 : S1024x512.Transposes [1, 0] S512x1024
  bitsLt_bf16_f32 : FTy.bits .bf16 < FTy.bits .f32
  slices_S1024x1536_S1024x512_0_512 : S1024x1536.Slices ![0, 512] S1024x512
  slices_S1024x1536_S1024x512_0_1024 : S1024x1536.Slices ![0, 1024] S1024x512
  transposes_S1x1024_S1024x1_1_0 : S1x1024.Transposes [1, 0] S1024x1
  inb_S3_S3_0 : ∀ a, (![0] : Fin 1 → Nat) a + S3.size a ≤ S3.size a
  h_S3 : 0 < S3.numel
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  inb_S128x30x512_S128x1x512_0_0_0 : ∀ a, (![0, 0, 0] : Fin 3 → Nat) a + S128x1x512.size a ≤ S128x30x512.size a
  h_S128x1x512 : 0 < S128x1x512.numel
  shapeCasts_S128x1x512_S128x512 : S128x1x512.ShapeCasts S128x512
  inb_S128x30x512_S128x1x512_0_1_0 : ∀ a, (![0, 1, 0] : Fin 3 → Nat) a + S128x1x512.size a ≤ S128x30x512.size a
  inb_S128x30x512_S128x1x512_0_2_0 : ∀ a, (![0, 2, 0] : Fin 3 → Nat) a + S128x1x512.size a ≤ S128x30x512.size a
  inb_S128x30x512_S128x1x512_0_3_0 : ∀ a, (![0, 3, 0] : Fin 3 → Nat) a + S128x1x512.size a ≤ S128x30x512.size a
  inb_S128x30x512_S128x1x512_0_4_0 : ∀ a, (![0, 4, 0] : Fin 3 → Nat) a + S128x1x512.size a ≤ S128x30x512.size a
  inb_S128x30x512_S128x1x512_0_5_0 : ∀ a, (![0, 5, 0] : Fin 3 → Nat) a + S128x1x512.size a ≤ S128x30x512.size a
  inb_S128x30x512_S128x1x512_0_6_0 : ∀ a, (![0, 6, 0] : Fin 3 → Nat) a + S128x1x512.size a ≤ S128x30x512.size a
  inb_S128x30x512_S128x1x512_0_7_0 : ∀ a, (![0, 7, 0] : Fin 3 → Nat) a + S128x1x512.size a ≤ S128x30x512.size a
  inb_S128x30x512_S128x1x512_0_8_0 : ∀ a, (![0, 8, 0] : Fin 3 → Nat) a + S128x1x512.size a ≤ S128x30x512.size a
  inb_S128x30x512_S128x1x512_0_9_0 : ∀ a, (![0, 9, 0] : Fin 3 → Nat) a + S128x1x512.size a ≤ S128x30x512.size a
  inb_S128x30x512_S128x1x512_0_10_0 : ∀ a, (![0, 10, 0] : Fin 3 → Nat) a + S128x1x512.size a ≤ S128x30x512.size a
  inb_S128x30x512_S128x1x512_0_11_0 : ∀ a, (![0, 11, 0] : Fin 3 → Nat) a + S128x1x512.size a ≤ S128x30x512.size a
  inb_S128x30x512_S128x1x512_0_12_0 : ∀ a, (![0, 12, 0] : Fin 3 → Nat) a + S128x1x512.size a ≤ S128x30x512.size a
  inb_S128x30x512_S128x1x512_0_13_0 : ∀ a, (![0, 13, 0] : Fin 3 → Nat) a + S128x1x512.size a ≤ S128x30x512.size a
  inb_S128x30x512_S128x1x512_0_14_0 : ∀ a, (![0, 14, 0] : Fin 3 → Nat) a + S128x1x512.size a ≤ S128x30x512.size a
  inb_S128x30x512_S128x1x512_0_15_0 : ∀ a, (![0, 15, 0] : Fin 3 → Nat) a + S128x1x512.size a ≤ S128x30x512.size a
  inb_S128x30x512_S128x1x512_0_16_0 : ∀ a, (![0, 16, 0] : Fin 3 → Nat) a + S128x1x512.size a ≤ S128x30x512.size a
  inb_S128x30x512_S128x1x512_0_17_0 : ∀ a, (![0, 17, 0] : Fin 3 → Nat) a + S128x1x512.size a ≤ S128x30x512.size a
  inb_S128x30x512_S128x1x512_0_18_0 : ∀ a, (![0, 18, 0] : Fin 3 → Nat) a + S128x1x512.size a ≤ S128x30x512.size a
  inb_S128x30x512_S128x1x512_0_19_0 : ∀ a, (![0, 19, 0] : Fin 3 → Nat) a + S128x1x512.size a ≤ S128x30x512.size a
  inb_S128x30x512_S128x1x512_0_20_0 : ∀ a, (![0, 20, 0] : Fin 3 → Nat) a + S128x1x512.size a ≤ S128x30x512.size a
  inb_S128x30x512_S128x1x512_0_21_0 : ∀ a, (![0, 21, 0] : Fin 3 → Nat) a + S128x1x512.size a ≤ S128x30x512.size a
  inb_S128x30x512_S128x1x512_0_22_0 : ∀ a, (![0, 22, 0] : Fin 3 → Nat) a + S128x1x512.size a ≤ S128x30x512.size a
  inb_S128x30x512_S128x1x512_0_23_0 : ∀ a, (![0, 23, 0] : Fin 3 → Nat) a + S128x1x512.size a ≤ S128x30x512.size a
  inb_S128x30x512_S128x1x512_0_24_0 : ∀ a, (![0, 24, 0] : Fin 3 → Nat) a + S128x1x512.size a ≤ S128x30x512.size a
  inb_S128x30x512_S128x1x512_0_25_0 : ∀ a, (![0, 25, 0] : Fin 3 → Nat) a + S128x1x512.size a ≤ S128x30x512.size a
  inb_S128x30x512_S128x1x512_0_26_0 : ∀ a, (![0, 26, 0] : Fin 3 → Nat) a + S128x1x512.size a ≤ S128x30x512.size a
  inb_S128x30x512_S128x1x512_0_27_0 : ∀ a, (![0, 27, 0] : Fin 3 → Nat) a + S128x1x512.size a ≤ S128x30x512.size a
  inb_S128x30x512_S128x1x512_0_28_0 : ∀ a, (![0, 28, 0] : Fin 3 → Nat) a + S128x1x512.size a ≤ S128x30x512.size a
  inb_S128x30x512_S128x1x512_0_29_0 : ∀ a, (![0, 29, 0] : Fin 3 → Nat) a + S128x1x512.size a ≤ S128x30x512.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S128x1_S128x1_0_0 : ∀ a, (![0, 0] : Fin 2 → Nat) a + S128x1.size a ≤ S128x1.size a
  h_S128x1 : 0 < S128x1.numel
  shapeCasts_S8192x1_S8192 : S8192x1.ShapeCasts S8192
  dot_S128x512_S512x1024_S128x1024_1_0_0_1_n_n_wf : DotDims.WF S128x512 S512x1024 S128x1024 [1] [0] [0] [1] [] []
  dot_S128x1024_S1024x1_S128x1_1_0_0_1_n_n_wf : DotDims.WF S128x1024 S1024x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x30x512.size a ≤ S8192x30x512.size a
  hwx0_0 : ∀ i : grid0.Coords, EltTy.bits .f32 = 32 ∨ (Rect.block (s := S8192x30x512) S128x30x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3.size a ≤ S3.size a
  hwx0_1 : ∀ i : grid0.Coords, EltTy.bits .f32 = 32 ∨ (Rect.block (s := S3) S3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .bf16 = 32 ∨ (Rect.block (s := S1024x1) S1024x1.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S8192x1.size a
  hwx0_7 : ∀ i : grid0.Coords, EltTy.bits .f32 = 32 ∨ (Rect.block (s := S8192x1) S128x1.size (cc0_transform_7 i) (hinb0_7 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf

abbrev win0_0 : Pipeline.Window sig grid0 :=
  Pipeline.Window.ofSpec (Memref.whole main_arg0) S128x30x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x30x512 : Shape := ⟨3, ![8192, 30, 512]⟩
abbrev S3 : Shape := ⟨1, ![3]⟩
abbrev S1024x1536 : Shape := ⟨2, ![1024, 1536]⟩
abbrev S1x1024 : Shape := ⟨2, ![1, 1024]⟩
abbrev S8192x512x30 : Shape := ⟨3, ![8192, 512, 30]⟩
abbrev S_ : Shape := ⟨0, ![]⟩
abbrev S8192x512x28 : Shape := ⟨3, ![8192, 512, 28]⟩
abbrev S1 : Shape := ⟨1, ![1]⟩
abbrev S8192x512 : Shape := ⟨2, ![8192, 512]⟩
abbrev S8192x512x7 : Shape := ⟨3, ![8192, 512, 7]⟩
abbrev S8192x512x5 : Shape := ⟨3, ![8192, 512, 5]⟩
abbrev S8192x1x512 : Shape := ⟨3, ![8192, 1, 512]⟩
abbrev S8192x1536 : Shape := ⟨2, ![8192, 1536]⟩
abbrev S1536x1024 : Shape := ⟨2, ![1536, 1024]⟩
abbrev S8192x1024 : Shape := ⟨2, ![8192, 1024]⟩
abbrev S1024x1 : Shape := ⟨2, ![1024, 1]⟩
abbrev S8192x1 : Shape := ⟨2, ![8192, 1]⟩
abbrev S8192 : Shape := ⟨1, ![8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x30x512, .f32⟩
  | .hbm, ⟨1, _⟩ => ⟨S3, .f32⟩
  | .hbm, ⟨2, _⟩ => ⟨S3, .f32⟩
  | .hbm, ⟨3, _⟩ => ⟨S1024x1536, .f32⟩
  | .hbm, ⟨4, _⟩ => ⟨S1x1024, .f32⟩
  | .hbm, ⟨5, _⟩ => ⟨S8192x512x30, .f32⟩
  | .hbm, ⟨6, _⟩ => ⟨S_, .f32⟩
  | .hbm, ⟨7, _⟩ => ⟨S8192x512x28, .f32⟩
  | .hbm, ⟨8, _⟩ => ⟨S8192x512x28, .f32⟩
  | .hbm, ⟨9, _⟩ => ⟨S1, .f32⟩
  | .hbm, ⟨10, _⟩ => ⟨S_, .f32⟩
  | .hbm, ⟨11, _⟩ => ⟨S8192x512x28, .f32⟩
  | .hbm, ⟨12, _⟩ => ⟨S8192x512x28, .f32⟩
  | .hbm, ⟨13, _⟩ => ⟨S8192x512x28, .f32⟩
  | .hbm, ⟨14, _⟩ => ⟨S8192x512x28, .f32⟩
  | .hbm, ⟨15, _⟩ => ⟨S1, .f32⟩
  | .hbm, ⟨16, _⟩ => ⟨S_, .f32⟩
  | .hbm, ⟨17, _⟩ => ⟨S8192x512x28, .f32⟩
  | .hbm, ⟨18, _⟩ => ⟨S8192x512x28, .f32⟩
  | .hbm, ⟨19, _⟩ => ⟨S8192x512x28, .f32⟩
  | .hbm, ⟨20, _⟩ => ⟨S8192x512x28, .f32⟩
  | .hbm, ⟨21, _⟩ => ⟨S1, .f32⟩
  | .hbm, ⟨22, _⟩ => ⟨S_, .f32⟩
  | .hbm, ⟨23, _⟩ => ⟨S8192x512x28, .f32⟩
  | .hbm, ⟨24, _⟩ => ⟨S8192x512x28, .f32⟩
  | .hbm, ⟨25, _⟩ => ⟨S8192x512x28, .f32⟩
  | .hbm, ⟨26, _⟩ => ⟨S_, .f32⟩
  | .hbm, ⟨27, _⟩ => ⟨S8192x512, .f32⟩
  | .hbm, ⟨28, _⟩ => ⟨S8192x512x7, .f32⟩
  | .hbm, ⟨29, _⟩ => ⟨S_, .f32⟩
  | .hbm, ⟨30, _⟩ => ⟨S8192x512x5, .f32⟩
  | .hbm, ⟨31, _⟩ => ⟨S8192x512x5, .f32⟩
  | .hbm, ⟨32, _⟩ => ⟨S1, .f32⟩
  | .hbm, ⟨33, _⟩ => ⟨S_, .f32⟩
  | .hbm, ⟨34, _⟩ => ⟨S8192x512x5, .f32⟩
  | .hbm, ⟨35, _⟩ => ⟨S8192x512x5, .f32⟩
  | .hbm, ⟨36, _⟩ => ⟨S8192x512x5, .f32⟩
  | .hbm, ⟨37, _⟩ => ⟨S8192x512x5, .f32⟩
  | .hbm, ⟨38, _⟩ => ⟨S1, .f32⟩
  | .hbm, ⟨39, _⟩ => ⟨S_, .f32⟩
  | .hbm, ⟨40, _⟩ => ⟨S8192x512x5, .f32⟩
  | .hbm, ⟨41, _⟩ => ⟨S8192x512x5, .f32⟩
  | .hbm, ⟨42, _⟩ => ⟨S8192x512x5, .f32⟩
  | .hbm, ⟨43, _⟩ => ⟨S8192x512x5, .f32⟩
  | .hbm, ⟨44, _⟩ => ⟨S1, .f32⟩
  | .hbm, ⟨45, _⟩ => ⟨S_, .f32⟩
  | .hbm, ⟨46, _⟩ => ⟨S8192x512x5, .f32⟩
  | .hbm, ⟨47, _⟩ => ⟨S8192x512x5, .f32⟩
  | .hbm, ⟨48, _⟩ => ⟨S8192x512x5, .f32⟩
  | .hbm, ⟨49, _⟩ => ⟨S_, .f32⟩
  | .hbm, ⟨50, _⟩ => ⟨S8192x512, .f32⟩
  | .hbm, ⟨51, _⟩ => ⟨S8192x1x512, .f32⟩
  | .hbm, ⟨52, _⟩ => ⟨S8192x512, .f32⟩
  | .hbm, ⟨53, _⟩ => ⟨S8192x1536, .f32⟩
  | .hbm, ⟨54, _⟩ => ⟨S1536x1024, .f32⟩
  | .hbm, ⟨55, _⟩ => ⟨S8192x1024, .f32⟩
  | .hbm, ⟨56, _⟩ => ⟨S8192x1024, .f32⟩
  | .hbm, ⟨57, _⟩ => ⟨S1024x1, .f32⟩
  | .hbm, ⟨58, _⟩ => ⟨S8192x1, .f32⟩
  | .hbm, ⟨59, _⟩ => ⟨S8192, .f32⟩
  | _, _ => ⟨S8192x30x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]

class Facts₀ : Prop where
  transposes_S8192x30x512_S8192x512x30_0_2_1 : S8192x30x512.Transposes [0, 2, 1] S8192x512x30
  bcast_S_S8192x512x28 : S_.BroadcastsInDim S8192x512x28 (![] : Fin 0 → Fin S8192x512x28.rank)
  slices_S8192x512x30_S8192x512x28_0_0_0 : S8192x512x30.Slices ![0, 0, 0] S8192x512x28
  slices_S3_S1_0 : S3.Slices ![0] S1
  shapeCasts_S1_S_ : S1.ShapeCasts S_
  slices_S8192x512x30_S8192x512x28_0_0_1 : S8192x512x30.Slices ![0, 0, 1] S8192x512x28
  slices_S3_S1_1 : S3.Slices ![1] S1
  slices_S8192x512x30_S8192x512x28_0_0_2 : S8192x512x30.Slices ![0, 0, 2] S8192x512x28
  slices_S3_S1_2 : S3.Slices ![2] S1
  reducesTo_S8192x512x28_S8192x512_d2 : S8192x512x28.ReducesTo [2] S8192x512
  h_S_ : 0 < S_.numel
  slices_S8192x512x30_S8192x512x7_0_0_23 : S8192x512x30.Slices ![0, 0, 23] S8192x512x7
  bcast_S_S8192x512x5 : S_.BroadcastsInDim S8192x512x5 (![] : Fin 0 → Fin S8192x512x5.rank)
  slices_S8192x512x7_S8192x512x5_0_0_0 : S8192x512x7.Slices ![0, 0, 0] S8192x512x5
  slices_S8192x512x7_S8192x512x5_0_0_1 : S8192x512x7.Slices ![0, 0, 1] S8192x512x5
  slices_S8192x512x7_S8192x512x5_0_0_2 : S8192x512x7.Slices ![0, 0, 2] S8192x512x5
  reducesTo_S8192x512x5_S8192x512_d2 : S8192x512x5.ReducesTo [2] S8192x512
  slices_S8192x30x512_S8192x1x512_0_29_0 : S8192x30x512.Slices ![0, 29, 0] S8192x1x512
  shapeCasts_S8192x1x512_S8192x512 : S8192x1x512.ShapeCasts S8192x512
  concatenates_S8192x512_S8192x512_S8192x512_S8192x1536_d1 : Shape.Concatenates [S8192x512, S8192x512, S8192x512] S8192x1536 1
  transposes_S1024x1536_S1536x1024_1_0 : S1024x1536.Transposes [1, 0] S1536x1024
  transposes_S1x1024_S1024x1_1_0 : S1x1024.Transposes [1, 0] S1024x1
  shapeCasts_S8192x1_S8192 : S8192x1.ShapeCasts S8192
  dot_S8192x1536_S1536x1024_S8192x1024_1_0_0_1_n_n_wf : DotDims.WF S8192x1536 S1536x1024 S8192x1024 [1] [0] [0] [1] [] []
  dot_S8192x1024_S1024x1_S8192x1_1_0_0_1_n_n_wf : DotDims.WF S8192x1024 S1024x1 S8192x1 [1] [0] [0] [1] [] []

variable [Facts₀]

def dot_S8192x1536_S1536x1024_S8192x1024_1_0_0_1_n_n : DotDims S8192x1536 S1536x1024 S8192x1024 where
  lhsContracting := [1]
  rhsContracting := [0]
  lhsNonContracting := [0]
  rhsNonContracting := [1]
  lhsBatch := []
  rhsBatch := []
  wf := dot_S8192x1536_S1536x1024_S8192x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.Spec.lean ====
/-
  The mathematics of the convolution-and-pooling head, on the extended reals.

  One row of the computation reads a table `e d s` (feature `d < 512`, time step `s`), two three-tap filters and three
  weight blocks:
  * a three-tap filter `w` slid along the time axis from offset `o`: `tap (e d) w o i` is the filter's answer at position
    `i`, the products added from the left;
  * the greatest of the first `n + 1` answers, taken as a running maximum (`runMax`);
  * the long branch pools 28 positions from offset 0, the middle branch 5 positions from offset 23, the short branch is
    the last time step (29);
  * the three pooled rows meet three `512 × 1024` weight blocks, the sums are added, `tanh` is applied, and the
    resulting 1024 numbers are summed against a `1024 × 1` column (`headRow`).
  Also here: the maximum of a finite family taken as a fold from `⊥` is the running maximum (`fold_max_eq_runMax`), and a
  sum over 1536 indices is the sum of its three thirds (`sum_thirds`) — the two regroupings that join a program pooling
  by a reduction and multiplying one wide feature row with a program pooling step by step and multiplying the three
  blocks apart. Both hold on every extended real: only commutativity and associativity of `max` and `+` are used.
-/
import Idealize.ShloMosaic.Lib.ValueIdx
import Idealize.ShloMosaic.PureOps.Ideal.Laws

noncomputable section

open scoped BigOperators

namespace Cert.ConvHead

open Idealize.ShloMosaic Idealize.ShloMosaic.ValueIdx

/-- The running maximum of a sequence: the greatest of `a 0, …, a n`, taken from the left. -/
def runMax (a : ℕ → EReal) : ℕ → EReal
  | 0 => a 0
  | n + 1 => max (runMax a n) (a (n + 1))

/-- The maximum of `a 0, …, a n` as a fold from `⊥` over the `n + 1` positions is the running maximum. -/
theorem fold_max_eq_runMax (a : ℕ → EReal) : ∀ n : ℕ,
    (Finset.univ : Finset (Fin (n + 1))).fold max ⊥ (fun k => a k.val) = runMax a n
  | 0 => by
    show (Finset.univ : Finset (Fin 1)).fold max ⊥ (fun k => a k.val) = a 0
    rw [Fin.univ_castSuccEmb, Finset.fold_cons]
    simp
  | n + 1 => by
    rw [Fin.univ_castSuccEmb, Finset.fold_cons, Finset.fold_map]
    have h : ((fun k : Fin (n + 1 + 1) => a k.val) ∘ ⇑(Fin.castSuccEmb (n := n + 1))) = fun k : Fin (n + 1) => a k.val := by
      funext k; simp
    rw [h, fold_max_eq_runMax a n, max_comm]
    simp [runMax]

/-- Entry `(p, s, d)` of a `P × 30 × 512` array with the time step a natural number (`0` past the end, never read). -/
def stepAt {P : ℕ} (x : (⟨3, ![P, 30, 512]⟩ : Shape).Idx → EReal) (p : Fin P) (d : Fin 512) (s : ℕ) : EReal :=
  if h : s < 30 then x (ix3 p ⟨s, h⟩ d) else 0

theorem stepAt_of_lt {P : ℕ} (x : (⟨3, ![P, 30, 512]⟩ : Shape).Idx → EReal) (p : Fin P) (d : Fin 512) (s : ℕ) (h : s < 30) :
    stepAt x p d s = x (ix3 p ⟨s, h⟩ d) := dif_pos h

/-- The three-tap filter `w` on the sequence `e`, at position `i` from offset `o`. -/
def tap (e : ℕ → EReal) (w : (⟨1, ![3]⟩ : Shape).Idx → EReal) (o i : ℕ) : EReal :=
  e (o + i) * w (ix1 0) + e (o + i + 1) * w (ix1 1) + e (o + i + 2) * w (ix1 2)

/-- One row of the head: the three pooled branches against their weight blocks, `tanh`, and the last column. -/
def headRow (e : Fin 512 → ℕ → EReal) (wl wm : (⟨1, ![3]⟩ : Shape).Idx → EReal)
    (Wl Wm Ws : (⟨2, ![512, 1024]⟩ : Shape).Idx → EReal) (w2 : (⟨2, ![1024, 1]⟩ : Shape).Idx → EReal) : EReal :=
  ∑ h : Fin 1024, Ideal.tanh ((∑ d : Fin 512, runMax (tap (e d) wl 0) 27 * Wl (ix2 d h))
      + (∑ d : Fin 512, runMax (tap (e d) wm 23) 4 * Wm (ix2 d h))
      + ∑ d : Fin 512, e d 29 * Ws (ix2 d h)) * w2 (ix2 h 0)

/-- An entry of a `P × 30 × 512` array named by its coordinates is `stepAt` there. -/
theorem eq_stepAt {P : ℕ} (x : (⟨3, ![P, 30, 512]⟩ : Shape).Idx → EReal) (p : Fin P) (d : Fin 512) (s : ℕ)
    (j : (⟨3, ![P, 30, 512]⟩ : Shape).Idx) (h0 : (j 0).val = p.val) (h1 : (j 1).val = s) (h2 : (j 2).val = d.val) :
    x j = stepAt x p d s := by
  have hs : s < 30 := h1 ▸ (j 1).isLt
  rw [stepAt_of_lt x p d s hs]
  refine congrArg x (funext fun a => Fin.ext ?_)
  match a with
  | ⟨0, _⟩ => exact h0
  | ⟨1, _⟩ => exact h1
  | ⟨2, _⟩ => exact h2

/-- Block `o` (of three) of a `1024 × 1536` weight array, transposed: entry `(d, h)` is the array's entry
    `(h, 512·o + d)`. -/
def wblock (W1 : (⟨2, ![1024, 1536]⟩ : Shape).Idx → EReal) (o : Fin 3) : (⟨2, ![512, 1024]⟩ : Shape).Idx → EReal :=
  fun j => W1 (ix2 (j 1) ⟨512 * o.val + (j 0).val, by have := o.isLt; have := idx2_lt0 j; omega⟩)

/-- A `1 × 1024` weight row as a column: entry `(h, 0)` is the row's entry `(0, h)`. -/
def w2col (W2 : (⟨2, ![1, 1024]⟩ : Shape).Idx → EReal) : (⟨2, ![1024, 1]⟩ : Shape).Idx → EReal :=
  fun j => W2 (ix2 (0 : Fin 1) (j 0))

/-- The whole computation on 8192 rows: entry `p` is the head of row `p` of the input against the three transposed
    blocks of the first weight array and the second weight array as a column. -/
def result (A0 : (⟨3, ![8192, 30, 512]⟩ : Shape).Idx → EReal) (A1 A2 : (⟨1, ![3]⟩ : Shape).Idx → EReal)
    (A3 : (⟨2, ![1024, 1536]⟩ : Shape).Idx → EReal) (A4 : (⟨2, ![1, 1024]⟩ : Shape).Idx → EReal) :
    (⟨1, ![8192]⟩ : Shape).Idx → EReal :=
  fun i => headRow (fun d => stepAt A0 (i 0) d) A1 A2 (wblock A3 0) (wblock A3 1) (wblock A3 2) (w2col A4)

/-- A sum over 1536 indices is the sum of its three thirds. -/
theorem sum_thirds {M : Type*} [AddCommMonoid M] (f : Fin 1536 → M) :
    ∑ k : Fin 1536, f k
      = (∑ d : Fin 512, f ⟨d.val, by omega⟩) + (∑ d : Fin 512, f ⟨512 + d.val, by omega⟩)
        + ∑ d : Fin 512, f ⟨1024 + d.val, by omega⟩ := by
  have e : ∑ k : Fin (512 + 512 + 512), f k
      = (∑ d : Fin 512, f (Fin.castAdd 512 (Fin.castAdd 512 d))) + (∑ d : Fin 512, f (Fin.castAdd 512 (Fin.natAdd 512 d)))
        + ∑ d : Fin 512, f (Fin.natAdd (512 + 512) d) := by
    rw [Fin.sum_univ_add, Fin.sum_univ_add]
  exact e

end Cert.ConvHead

end
-- ==== Proof.LibStepLoad.lean ====
/-
  One time step of a block, loaded and flattened, at an index.

  One time step of a `P × T × D` block, loaded as a `P × 1 × D` slab from row offset `o` on the middle axis and viewed as
    a `P × D` matrix, holds at `(p, d)` the block's entry `(p, o, d)` (`step_apply`); the step lies inside the block because the load does (`step_lt`).
-/
import Idealize.ShloMosaic.Lib.ValueIdx
import Idealize.ShloMosaic.Lib.Pipeline.Value

noncomputable section

namespace Cert.Lib.StepLoad

open Idealize.ShloMosaic Idealize.ShloMosaic.ValueIdx

variable {Val : EltTy → Type} {e : EltTy}

/-- A one-step load from step `o` that stays inside the block has `o` below the number of steps. -/
theorem step_lt {P T D : Nat} {o : Nat}
    (inb : ∀ a, (![0, o, 0] : Fin 3 → Nat) a + (⟨3, ![P, 1, D]⟩ : Shape).size a ≤ (⟨3, ![P, T, D]⟩ : Shape).size a) : o < T := by
  have h : o + 1 ≤ T := inb 1
  omega

/-- A `P × 1 × D` slab loaded from step `o` of a `P × T × D` block, viewed as a `P × D` matrix, at `(p, d)`. -/
theorem step_apply {P T D : Nat} (x : (⟨3, ![P, T, D]⟩ : Shape).Idx → Val e) (o : Nat)
    (inb : ∀ a, (![0, o, 0] : Fin 3 → Nat) a + (⟨3, ![P, 1, D]⟩ : Shape).size a ≤ (⟨3, ![P, T, D]⟩ : Shape).size a)
    (hc : (⟨3, ![P, 1, D]⟩ : Shape).ShapeCasts ⟨2, ![P, D]⟩) (p : Fin P) (d : Fin D) :
    shapeCast ⟨2, ![P, D]⟩ (View.ld x (Rect.unit (s := ⟨3, ![P, T, D]⟩) ![0, o, 0] (⟨3, ![P, 1, D]⟩ : Shape).size inb)) hc (ix2 p d)
      = x (ix3 p ⟨o, step_lt inb⟩ d) := by
  refine (shapeCast_apply _ hc (ix2 p d) (ix3 p (0 : Fin 1) d) ?_).trans ?_
  · rw [Shape.rowMajor_val_three, Shape.rowMajor_val_two]
    show (p.val * 1 + 0) * D + d.val = p.val * D + d.val
    rw [Nat.mul_one, Nat.add_zero]
  · show x _ = x _
    refine congrArg x (funext fun a => Fin.ext ?_)
    match a with
    | ⟨0, _⟩ => show 0 + 1 * p.val = p.val; omega
    | ⟨1, _⟩ => show o + 1 * 0 = o; omega
    | ⟨2, _⟩ => show 0 + 1 * d.val = d.val; omega

end Cert.Lib.StepLoad

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.KernelRow.lean ====
/-
  One row of the kernel body's result, at the ideal values.

  The body stores one `128 × 1` block: row `p` of it is the head `Cert.ConvHead.headRow` of the row's `30 × 512` slab of
  the staged input block. Read off the body's arithmetic:
  * a filter weight is one entry of a loaded three-entry vector;
  * time step `o` of the block, loaded as a `128 × 1 × 512` slab and flattened, is `stepAt x p d o` at `(p, d)`;
  * the long branch is a chain of 28 filter answers joined by `max` from the left — the running maximum over positions
    `0 … 27` from offset `0` —, the middle branch the same over positions `0 … 4` from offset `23`, the short branch
    step `29`;
  * each of the three products with a `512 × 1024` weight block is a sum over the 512 features, narrowing to bf16 being
    the identity at the ideal values; the last product is a sum over the 1024 hidden units.
-/
import proofs.«151247_j79413945303391_1_alg».proof.Proof.Gen.KernelIdeal.Frame
import proofs.«151247_j79413945303391_1_alg».proof.Proof.Spec
import proofs.«151247_j79413945303391_1_alg».proof.Proof.LibStepLoad
import proofs.«151247_j79413945303391_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.ConvHead Cert.Lib

theorem hz1 : (![0] : Fin 1 → Nat) = fun _ => 0 := funext fun a => by fin_cases a; rfl
theorem hz2 : (![0, 0] : Fin 2 → Nat) = fun _ => 0 := funext fun a => by fin_cases a <;> rfl

/-! ## The filter weights -/

theorem pay2_eq (v : Vec Ideal S3 .f32) : k0_pay2 v = v (ix1 0) :=
  congrArg v (funext fun a => Fin.ext (by match a with | ⟨0, _⟩ => rfl))
theorem pay3_eq (v : Vec Ideal S3 .f32) : k0_pay3 v = v (ix1 1) :=
  congrArg v (funext fun a => Fin.ext (by match a with | ⟨0, _⟩ => rfl))
theorem pay4_eq (v : Vec Ideal S3 .f32) : k0_pay4 v = v (ix1 2) :=
  congrArg v (funext fun a => Fin.ext (by match a with | ⟨0, _⟩ => rfl))
theorem pay5_eq (v : Vec Ideal S3 .f32) : k0_pay5 v = v (ix1 0) :=
  congrArg v (funext fun a => Fin.ext (by match a with | ⟨0, _⟩ => rfl))
theorem pay6_eq (v : Vec Ideal S3 .f32) : k0_pay6 v = v (ix1 1) :=
  congrArg v (funext fun a => Fin.ext (by match a with | ⟨0, _⟩ => rfl))
theorem pay7_eq (v : Vec Ideal S3 .f32) : k0_pay7 v = v (ix1 2) :=
  congrArg v (funext fun a => Fin.ext (by match a with | ⟨0, _⟩ => rfl))

/-! ## One time step of the block -/

/-- Time step `o` of the block, loaded and flattened, at `(p, d)`. -/
theorem step_eq (x0 : Vec Ideal S128x30x512 .f32) (o : Nat)
    (inb : ∀ a, (![0, o, 0] : Fin 3 → Nat) a + S128x1x512.size a ≤ S128x30x512.size a) (p : Fin 128) (d : Fin 512) :
    shapeCast S128x512 (View.ld x0 (Rect.unit (s := S128x30x512) ![0, o, 0] S128x1x512.size inb)) shapeCasts_S128x1x512_S128x512 (ix2 p d)
      = stepAt x0 p d o :=
  (StepLoad.step_apply x0 o inb shapeCasts_S128x1x512_S128x512 p d).trans (stepAt_of_lt x0 p d o (StepLoad.step_lt inb)).symm

/-! ## The two pooled branches -/

set_option maxRecDepth 65536 in
/-- The long branch at `(p, d)`: the running maximum of the 28 filter answers. -/
theorem long_apply (x0 : Vec Ideal S128x30x512 .f32) (x1 : Vec Ideal S3 .f32) (p : Fin 128) (d : Fin 512) :
    (k0_pay36 (k0_pay2 (View.ld x1 r0_0)) (k0_pay3 (View.ld x1 r0_0)) (k0_pay4 (View.ld x1 r0_0)) (k0_pay33 (k0_pay2 (View.ld x1 r0_0)) (k0_pay3 (View.ld x1 r0_0)) (k0_pay4 (View.ld x1 r0_0)) (k0_pay31 (k0_pay2 (View.ld x1 r0_0)) (k0_pay3 (View.ld x1 r0_0)) (k0_pay4 (View.ld x1 r0_0)) (k0_pay28 (k0_pay2 (View.ld x1 r0_0)) (k0_pay3 (View.ld x1 r0_0)) (k0_pay4 (View.ld x1 r0_0)) (k0_pay26 (k0_pay2 (View.ld x1 r0_0)) (k0_pay3 (View.ld x1 r0_0)) (k0_pay4 (View.ld x1 r0_0)) (k0_pay23 (k0_pay2 (View.ld x1 r0_0)) (k0_pay3 (View.ld x1 r0_0)) (k0_pay4 (View.ld x1 r0_0)) (k0_pay21 (k0_pay2 (View.ld x1 r0_0)) (k0_pay3 (View.ld x1 r0_0)) (k0_pay4 (View.ld x1 r0_0)) (k0_pay18 (k0_pay2 (View.ld x1 r0_0)) (k0_pay3 (View.ld x1 r0_0)) (k0_pay4 (View.ld x1 r0_0)) (k0_pay16 (k0_pay2 (View.ld x1 r0_0)) (k0_pay3 (View.ld x1 r0_0)) (k0_pay4 (View.ld x1 r0_0)) (k0_pay13 (k0_pay2 (View.ld x1 r0_0)) (k0_pay3 (View.ld x1 r0_0)) (k0_pay4 (View.ld x1 r0_0)) (k0_pay11 (k0_pay2 (View.ld x1 r0_0)) (k0_pay3 (View.ld x1 r0_0)) (k0_pay4 (View.ld x1 r0_0)) (k0_pay8 (View.ld x1 r0_0) (View.ld x0 r0_1) (View.ld x0 r0_2) (View.ld x0 r0_3)) (k0_pay9 (View.ld x1 r0_0) (View.ld x0 r0_2) (View.ld x0 r0_3)) (k0_pay10 (View.ld x0 r0_4)) (View.ld x0 r0_3) (View.ld x0 r0_4) (View.ld x0 r0_5) (View.ld x0 r0_4) (View.ld x0 r0_5) (View.ld x0 r0_6)) (k0_pay12 (k0_pay2 (View.ld x1 r0_0)) (View.ld x0 r0_5)) (View.ld x0 r0_6) (View.ld x0 r0_7) (View.ld x0 r0_6) (View.ld x0 r0_7) (View.ld x0 r0_8)) (k0_pay14 (k0_pay2 (View.ld x1 r0_0)) (k0_pay3 (View.ld x1 r0_0)) (View.ld x0 r0_7) (View.ld x0 r0_8)) (k0_pay15 (View.ld x0 r0_9)) (View.ld x0 r0_8) (View.ld x0 r0_9) (View.ld x0 r0_10) (View.ld x0 r0_9) (View.ld x0 r0_10) (View.ld x0 r0_11)) (k0_pay17 (k0_pay2 (View.ld x1 r0_0)) (View.ld x0 r0_10)) (View.ld x0 r0_11) (View.ld x0 r0_12) (View.ld x0 r0_11) (View.ld x0 r0_12) (View.ld x0 r0_13)) (k0_pay19 (k0_pay2 (View.ld x1 r0_0)) (k0_pay3 (View.ld x1 r0_0)) (View.ld x0 r0_12) (View.ld x0 r0_13)) (k0_pay20 (View.ld x0 r0_14)) (View.ld x0 r0_13) (View.ld x0 r0_14) (View.ld x0 r0_15) (View.ld x0 r0_14) (View.ld x0 r0_15) (View.ld x0 r0_16)) (k0_pay22 (k0_pay2 (View.ld x1 r0_0)) (View.ld x0 r0_15)) (View.ld x0 r0_16) (View.ld x0 r0_17) (View.ld x0 r0_16) (View.ld x0 r0_17) (View.ld x0 r0_18)) (k0_pay24 (k0_pay2 (View.ld x1 r0_0)) (k0_pay3 (View.ld x1 r0_0)) (View.ld x0 r0_17) (View.ld x0 r0_18)) (k0_pay25 (View.ld x0 r0_19)) (View.ld x0 r0_18) (View.ld x0 r0_19) (View.ld x0 r0_20) (View.ld x0 r0_19) (View.ld x0 r0_20) (View.ld x0 r0_21)) (k0_pay27 (k0_pay2 (View.ld x1 r0_0)) (View.ld x0 r0_20)) (View.ld x0 r0_21) (View.ld x0 r0_22) (View.ld x0 r0_21) (View.ld x0 r0_22) (View.ld x0 r0_23)) (k0_pay29 (k0_pay2 (View.ld x1 r0_0)) (k0_pay3 (View.ld x1 r0_0)) (View.ld x0 r0_22) (View.ld x0 r0_23)) (k0_pay30 (View.ld x0 r0_24)) (View.ld x0 r0_23) (View.ld x0 r0_24) (View.ld x0 r0_25) (View.ld x0 r0_24) (View.ld x0 r0_25) (View.ld x0 r0_26)) (k0_pay32 (k0_pay2 (View.ld x1 r0_0)) (View.ld x0 r0_25)) (View.ld x0 r0_26) (View.ld x0 r0_27) (View.ld x0 r0_26) (View.ld x0 r0_27) (View.ld x0 r0_28)) (k0_pay34 (k0_pay2 (View.ld x1 r0_0)) (k0_pay3 (View.ld x1 r0_0)) (View.ld x0 r0_27) (View.ld x0 r0_28)) (k0_pay35 (View.ld x0 r0_29)) (View.ld x0 r0_28) (View.ld x0 r0_29) (View.ld x0 r0_30)) (ix2 p d)
      = runMax (tap (stepAt x0 p d) x1 0) 27 := by
  simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36,
    pay2_eq, pay3_eq, pay4_eq, View.ld_unit_zero (S := S3) hz1, maximumf_apply, addf_apply, mulf_apply, broadcast_apply,
    step_eq x0 0 inb_S128x30x512_S128x1x512_0_0_0, step_eq x0 1 inb_S128x30x512_S128x1x512_0_1_0, step_eq x0 2 inb_S128x30x512_S128x1x512_0_2_0, step_eq x0 3 inb_S128x30x512_S128x1x512_0_3_0, step_eq x0 4 inb_S128x30x512_S128x1x512_0_4_0, step_eq x0 5 inb_S128x30x512_S128x1x512_0_5_0, step_eq x0 6 inb_S128x30x512_S128x1x512_0_6_0, step_eq x0 7 inb_S128x30x512_S128x1x512_0_7_0, step_eq x0 8 inb_S128x30x512_S128x1x512_0_8_0, step_eq x0 9 inb_S128x30x512_S128x1x512_0_9_0, step_eq x0 10 inb_S128x30x512_S128x1x512_0_10_0, step_eq x0 11 inb_S128x30x512_S128x1x512_0_11_0, step_eq x0 12 inb_S128x30x512_S128x1x512_0_12_0, step_eq x0 13 inb_S128x30x512_S128x1x512_0_13_0, step_eq x0 14 inb_S128x30x512_S128x1x512_0_14_0, step_eq x0 15 inb_S128x30x512_S128x1x512_0_15_0, step_eq x0 16 inb_S128x30x512_S128x1x512_0_16_0, step_eq x0 17 inb_S128x30x512_S128x1x512_0_17_0, step_eq x0 18 inb_S128x30x512_S128x1x512_0_18_0, step_eq x0 19 inb_S128x30x512_S128x1x512_0_19_0, step_eq x0 20 inb_S128x30x512_S128x1x512_0_20_0, step_eq x0 21 inb_S128x30x512_S128x1x512_0_21_0, step_eq x0 22 inb_S128x30x512_S128x1x512_0_22_0, step_eq x0 23 inb_S128x30x512_S128x1x512_0_23_0, step_eq x0 24 inb_S128x30x512_S128x1x512_0_24_0, step_eq x0 25 inb_S128x30x512_S128x1x512_0_25_0, step_eq x0 26 inb_S128x30x512_S128x1x512_0_26_0, step_eq x0 27 inb_S128x30x512_S128x1x512_0_27_0, step_eq x0 28 inb_S128x30x512_S128x1x512_0_28_0, step_eq x0 29 inb_S128x30x512_S128x1x512_0_29_0]
  rfl

set_option maxRecDepth 65536 in
/-- The middle branch at `(p, d)`: the running maximum of the 5 filter answers from offset 23. -/
theorem mid_apply (x0 : Vec Ideal S128x30x512 .f32) (x2 : Vec Ideal S3 .f32) (p : Fin 128) (d : Fin 512) :
    max (max ((k0_pay39 (k0_pay5 (View.ld x2 r0_0)) (k0_pay6 (View.ld x2 r0_0)) (k0_pay7 (View.ld x2 r0_0)) (k0_pay37 (k0_pay5 (View.ld x2 r0_0)) (k0_pay6 (View.ld x2 r0_0)) (k0_pay7 (View.ld x2 r0_0)) (View.ld x0 r0_24) (View.ld x0 r0_25) (View.ld x0 r0_26)) (k0_pay38 (k0_pay5 (View.ld x2 r0_0)) (View.ld x0 r0_25)) (View.ld x0 r0_26) (View.ld x0 r0_27) (View.ld x0 r0_26) (View.ld x0 r0_27) (View.ld x0 r0_28)) (ix2 p d))
          ((k0_pay40 (k0_pay5 (View.ld x2 r0_0)) (k0_pay6 (View.ld x2 r0_0)) (View.ld x0 r0_27) (View.ld x0 r0_28)) (ix2 p d) + (k0_pay41 (View.ld x0 r0_29)) (ix2 p d) * (k0_pay42 (k0_pay7 (View.ld x2 r0_0))) (ix2 p d)))
        (shapeCast S128x512 (View.ld x0 r0_28) shapeCasts_S128x1x512_S128x512 (ix2 p d) * k0_pay5 (View.ld x2 r0_0)
          + shapeCast S128x512 (View.ld x0 r0_29) shapeCasts_S128x1x512_S128x512 (ix2 p d) * k0_pay6 (View.ld x2 r0_0)
          + shapeCast S128x512 (View.ld x0 r0_30) shapeCasts_S128x1x512_S128x512 (ix2 p d) * k0_pay7 (View.ld x2 r0_0))
      = runMax (tap (stepAt x0 p d) x2 23) 4 := by
  simp only [k0_pay37, k0_pay38, k0_pay39, k0_pay40, k0_pay41, k0_pay42,
    pay5_eq, pay6_eq, pay7_eq, View.ld_unit_zero (S := S3) hz1, maximumf_apply, addf_apply, mulf_apply, broadcast_apply,
    step_eq x0 0 inb_S128x30x512_S128x1x512_0_0_0, step_eq x0 1 inb_S128x30x512_S128x1x512_0_1_0, step_eq x0 2 inb_S128x30x512_S128x1x512_0_2_0, step_eq x0 3 inb_S128x30x512_S128x1x512_0_3_0, step_eq x0 4 inb_S128x30x512_S128x1x512_0_4_0, step_eq x0 5 inb_S128x30x512_S128x1x512_0_5_0, step_eq x0 6 inb_S128x30x512_S128x1x512_0_6_0, step_eq x0 7 inb_S128x30x512_S128x1x512_0_7_0, step_eq x0 8 inb_S128x30x512_S128x1x512_0_8_0, step_eq x0 9 inb_S128x30x512_S128x1x512_0_9_0, step_eq x0 10 inb_S128x30x512_S128x1x512_0_10_0, step_eq x0 11 inb_S128x30x512_S128x1x512_0_11_0, step_eq x0 12 inb_S128x30x512_S128x1x512_0_12_0, step_eq x0 13 inb_S128x30x512_S128x1x512_0_13_0, step_eq x0 14 inb_S128x30x512_S128x1x512_0_14_0, step_eq x0 15 inb_S128x30x512_S128x1x512_0_15_0, step_eq x0 16 inb_S128x30x512_S128x1x512_0_16_0, step_eq x0 17 inb_S128x30x512_S128x1x512_0_17_0, step_eq x0 18 inb_S128x30x512_S128x1x512_0_18_0, step_eq x0 19 inb_S128x30x512_S128x1x512_0_19_0, step_eq x0 20 inb_S128x30x512_S128x1x512_0_20_0, step_eq x0 21 inb_S128x30x512_S128x1x512_0_21_0, step_eq x0 22 inb_S128x30x512_S128x1x512_0_22_0, step_eq x0 23 inb_S128x30x512_S128x1x512_0_23_0, step_eq x0 24 inb_S128x30x512_S128x1x512_0_24_0, step_eq x0 25 inb_S128x30x512_S128x1x512_0_25_0, step_eq x0 26 inb_S128x30x512_S128x1x512_0_26_0, step_eq x0 27 inb_S128x30x512_S128x1x512_0_27_0, step_eq x0 28 inb_S128x30x512_S128x1x512_0_28_0, step_eq x0 29 inb_S128x30x512_S128x1x512_0_29_0]
  rfl

/-! ## The two matrix products -/

/-- The hidden layer's payload at `(p, h)`, in its arguments. -/
theorem pay43_apply (v9 v11 v13 : Ideal .f32) (v432 v476 v485 v487 v488 : FVec Ideal S128x512 .f32)
    (v492 v496 v501 v507 : Vec Ideal S128x1x512 .f32) (v512 v515 v519 : Vec Ideal S512x1024 .bf16) (p : Fin 128) (h : Fin 1024) :
    k0_pay43 v9 v11 v13 v432 v476 v485 v487 v488 v492 v496 v501 v507 v512 v515 v519 (ix2 p h)
      = Ideal.tanh ((∑ d : Fin 512, v432 (ix2 p d) * v512 (ix2 d h))
          + (∑ d : Fin 512, max (max (v476 (ix2 p d)) (v485 (ix2 p d) + v487 (ix2 p d) * v488 (ix2 p d)))
              (shapeCast S128x512 v492 shapeCasts_S128x1x512_S128x512 (ix2 p d) * v9
                + shapeCast S128x512 v496 shapeCasts_S128x1x512_S128x512 (ix2 p d) * v11
                + shapeCast S128x512 v501 shapeCasts_S128x1x512_S128x512 (ix2 p d) * v13) * v515 (ix2 d h))
          + ∑ d : Fin 512, shapeCast S128x512 v507 shapeCasts_S128x1x512_S128x512 (ix2 p d) * v519 (ix2 d h)) := by
  unfold k0_pay43
  simp only [shapeCast_self]
  show Ideal.tanh ((FloatOps.matmul (F := Ideal) (DotDims.plain 128 512 1024) none _ v512 (constant ⟨2, ![128, 1024]⟩ .f32 0x00000000#32) (ix2 p h)
      + FloatOps.matmul (F := Ideal) (DotDims.plain 128 512 1024) none _ v515 (constant ⟨2, ![128, 1024]⟩ .f32 0x00000000#32) (ix2 p h))
      + FloatOps.matmul (F := Ideal) (DotDims.plain 128 512 1024) none _ v519 (constant ⟨2, ![128, 1024]⟩ .f32 0x00000000#32) (ix2 p h)) = _
  rw [PlainDot.matmul_zero_apply, PlainDot.matmul_zero_apply, PlainDot.matmul_zero_apply]
  rfl

/-- The output payload at row `p`, in its arguments. -/
theorem pay1_apply (v524 : FVec Ideal S128x1024 .bf16) (v525 : Vec Ideal S1024x1 .bf16) (p : Fin 128) :
    k0_pay1 v524 v525 (ix2 p (0 : Fin 1)) = ∑ h : Fin 1024, v524 (ix2 p h) * v525 (ix2 h (0 : Fin 1)) := by
  unfold k0_pay1
  simp only [shapeCast_self]
  exact PlainDot.matmul_zero_apply none v524 v525 p 0

/-! ## The stored block, row by row -/

/-- Row `p` of the block the body stores is the head of row `p` of the staged input block. -/
theorem out_row (x0 : Vec Ideal S128x30x512 .f32) (x1 x2 : Vec Ideal S3 .f32) (x3 x4 x5 : Vec Ideal S512x1024 .bf16)
    (x6 : Vec Ideal S1024x1 .bf16) (p : Fin 128) :
    out0_7 x0 x1 x2 x3 x4 x5 x6 (ix2 p (0 : Fin 1)) = headRow (fun d => stepAt x0 p d) x1 x2 x3 x4 x5 x6 := by
  unfold out0_7
  rw [View.canon_unit_zero hz2, pay1_apply]
  unfold headRow
  refine Finset.sum_congr rfl fun h _ => ?_
  rw [pay43_apply, View.ld_unit_zero (S := S1024x1) hz2, View.ld_unit_zero (S := S512x1024) hz2,
    View.ld_unit_zero (S := S512x1024) hz2, View.ld_unit_zero (S := S512x1024) hz2]
  refine congrArg₂ (· * ·) (congrArg Ideal.tanh (congrArg₂ (· + ·) (congrArg₂ (· + ·) ?_ ?_) ?_)) rfl
  · exact Finset.sum_congr rfl fun d _ => by rw [long_apply]
  · exact Finset.sum_congr rfl fun d _ => by rw [mid_apply]
  · exact Finset.sum_congr rfl fun d _ => by rw [step_eq]

end Cert.KernelIdeal.RowValue

end
-- ==== Proof.KernelValue.lean ====
/-
  The kernel's result array, from its blocks.

  The grid has 64 points; point `t` stages rows `128·t … 128·t + 127` of the input, both filter vectors whole, the three
  transposed weight blocks and the weight column whole, and writes back rows `128·t … 128·t + 127` of the `8192 × 1`
  output. The weight blocks are computed before the launch — a column slice of the first weight array, transposed and
  narrowed to bf16, which at the ideal values is `wblock` of the array; the column is the second weight array transposed,
  `w2col` —, and after the launch the `8192 × 1` output is viewed as a vector. So row `p` of what point `t` stores is the
  head of row `128·t + p` of the input, the 64 blocks tile the output, and the result vector is `Cert.ConvHead.result` of
  the argument arrays.
-/
import proofs.«151247_j79413945303391_1_alg».proof.Proof.Gen.KernelIdeal.Frame
import proofs.«151247_j79413945303391_1_alg».proof.Proof.KernelRow
import proofs.«151247_j79413945303391_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.ConvHead
open Idealize.ShloMosaic.Pipeline (Dat)

variable (m : (ℓ : Loc nD τ sig) → Buf (Elt Ideal) ℓ) (ρ : Dev nD → PrngReg)

/-! ## The index maps over the grid -/

/-- The input's and the output's block index on the row axis is the point; every other block index is 0. -/
theorem idx_facts : ∀ t : Fin cfg0.N, win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the host computes before the launch -/

/-- A weight block as the region finds it: slice `o` of the first weight array, transposed. -/
theorem wblock_read (A3 : S1024x1536.Idx → EReal) (o : Fin 3) (off : Nat) (hoff : off = 512 * o.val)
    (hs : S1024x1536.Slices ![0, off] S1024x512) (ht : S1024x512.Transposes [1, 0] S512x1024) :
    (truncf (F := Ideal) .bf16 (transpose S512x1024 [1, 0] (extractStridedSlice S1024x512 ![0, off] A3 hs) ht) bitsLt_bf16_f32
        : FVec Ideal S512x1024 .bf16) = wblock A3 o := by
  funext j
  obtain ⟨d, h, rfl⟩ : ∃ (d : Fin 512) (h : Fin 1024), j = ix2 d h := ⟨j 0, j 1, eq_ix2 j⟩
  rw [truncf_apply, transpose_ix2_apply, slice2_axis1_apply off A3 hs h d ⟨512 * o.val + d.val, by have := o.isLt; have := d.isLt; omega⟩
    (by show 512 * o.val + d.val = off + d.val; omega)]
  rfl

theorem V_v2 (c : Dev nD) : (V m c main_v2 : S512x1024.Idx → EReal) = wblock (m ((c : Thread nD τ).loc main_arg3)) 0 := by
  have e : (V m c main_v2 : S512x1024.Idx → EReal) = truncf (F := Ideal) .bf16 (transpose S512x1024 [1, 0]
      (extractStridedSlice S1024x512 ![0, 0] (m ((c : Thread nD τ).loc main_arg3)) slices_S1024x1536_S1024x512_0_0) transposes_S1024x512_S512x1024_1_0) bitsLt_bf16_f32 := by
    show StableHlo.after hostOps0 (fun b => m (c, b)) (Proc.devRef .tc main_v2) = _
    after_results
  rw [e]; exact wblock_read _ 0 0 rfl _ _

theorem V_v5 (c : Dev nD) : (V m c main_v5 : S512x1024.Idx → EReal) = wblock (m ((c : Thread nD τ).loc main_arg3)) 1 := by
  have e : (V m c main_v5 : S512x1024.Idx → EReal) = truncf (F := Ideal) .bf16 (transpose S512x1024 [1, 0]
      (extractStridedSlice S1024x512 ![0, 512] (m ((c : Thread nD τ).loc main_arg3)) slices_S1024x1536_S1024x512_0_512) transposes_S1024x512_S512x1024_1_0) bitsLt_bf16_f32 := by
    show StableHlo.after hostOps0 (fun b => m (c, b)) (Proc.devRef .tc main_v5) = _
    after_results
  rw [e]; exact wblock_read _ 1 512 rfl _ _

theorem V_v8 (c : Dev nD) : (V m c main_v8 : S512x1024.Idx → EReal) = wblock (m ((c : Thread nD τ).loc main_arg3)) 2 := by
  have e : (V m c main_v8 : S512x1024.Idx → EReal) = truncf (F := Ideal) .bf16 (transpose S512x1024 [1, 0]
      (extractStridedSlice S1024x512 ![0, 1024] (m ((c : Thread nD τ).loc main_arg3)) slices_S1024x1536_S1024x512_0_1024) transposes_S1024x512_S512x1024_1_0) bitsLt_bf16_f32 := by
    show StableHlo.after hostOps0 (fun b => m (c, b)) (Proc.devRef .tc main_v8) = _
    after_results
  rw [e]; exact wblock_read _ 2 1024 rfl _ _

theorem V_v10 (c : Dev nD) : (V m c main_v10 : S1024x1.Idx → EReal) = w2col (m ((c : Thread nD τ).loc main_arg4)) := by
  have e : (V m c main_v10 : S1024x1.Idx → EReal) = truncf (F := Ideal) .bf16 (transpose S1024x1 [1, 0]
      (m ((c : Thread nD τ).loc main_arg4)) transposes_S1x1024_S1024x1_1_0) bitsLt_bf16_f32 := by
    show StableHlo.after hostOps0 (fun b => m (c, b)) (Proc.devRef .tc main_v10) = _
    after_results
  rw [e]
  funext j
  obtain ⟨h, z, rfl⟩ : ∃ (h : Fin 1024) (z : Fin 1), j = ix2 h z := ⟨j 0, j 1, eq_ix2 j⟩
  rw [truncf_apply, transpose_ix2_apply]
  show _ = (m ((c : Thread nD τ).loc main_arg4)) (ix2 (0 : Fin 1) h)
  have hz : z = 0 := Fin.ext (by omega)
  rw [hz]

/-! ## Each staged block, as the argument arrays -/

theorem blk1 (c : Dev nD) (t : Fin cfg0.N) : (iblk m c 1 t : S3.Idx → EReal) = (m ((c : Thread nD τ).loc main_arg1)) := by
  obtain ⟨-, -, -, e1, -⟩ := idx_facts t
  funext y
  show V m c main_arg1 (((cfg0.win 1).blk t).view.emb y) = _
  rw [V_main_arg1]
  refine congrArg _ (funext fun a => Fin.ext ?_)
  match a with
  | ⟨0, _⟩ => show win0_1.index t (0 : Fin 1) * 3 + 1 * (y 0).val = (y 0).val; omega

theorem blk2 (c : Dev nD) (t : Fin cfg0.N) : (iblk m c 2 t : S3.Idx → EReal) = (m ((c : Thread nD τ).loc main_arg2)) := by
  obtain ⟨-, -, -, -, e2, -⟩ := idx_facts t
  funext y
  show V m c main_arg2 (((cfg0.win 2).blk t).view.emb y) = _
  rw [V_main_arg2]
  refine congrArg _ (funext fun a => Fin.ext ?_)
  match a with
  | ⟨0, _⟩ => show win0_2.index t (0 : Fin 1) * 3 + 1 * (y 0).val = (y 0).val; omega

theorem blk3 (c : Dev nD) (t : Fin cfg0.N) : (iblk m c 3 t : S512x1024.Idx → EReal) = wblock (m ((c : Thread nD τ).loc main_arg3)) 0 := by
  obtain ⟨-, -, -, -, -, e0, e1, -⟩ := idx_facts t
  rw [← V_v2 m c]
  funext y
  show V m c main_v2 (((cfg0.win 3).blk t).view.emb y) = V m c main_v2 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

theorem blk4 (c : Dev nD) (t : Fin cfg0.N) : (iblk m c 4 t : S512x1024.Idx → EReal) = wblock (m ((c : Thread nD τ).loc main_arg3)) 1 := by
  obtain ⟨-, -, -, -, -, -, -, e0, e1, -⟩ := idx_facts t
  rw [← V_v5 m c]
  funext y
  show V m c main_v5 (((cfg0.win 4).blk t).view.emb y) = V m c main_v5 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 1024 + 1 * (y 1).val = (y 1).val; omega

theorem blk5 (c : Dev nD) (t : Fin cfg0.N) : (iblk m c 5 t : S512x1024.Idx → EReal) = wblock (m ((c : Thread nD τ).loc main_arg3)) 2 := by
  obtain ⟨-, -, -, -, -, -, -, -, -, e0, e1, -⟩ := idx_facts t
  rw [← V_v8 m c]
  funext y
  show V m c main_v8 (((cfg0.win 5).blk t).view.emb y) = V m c main_v8 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 1024 + 1 * (y 1).val = (y 1).val; omega

theorem blk6 (c : Dev nD) (t : Fin cfg0.N) : (iblk m c 6 t : S1024x1.Idx → EReal) = w2col (m ((c : Thread nD τ).loc main_arg4)) := by
  obtain ⟨-, -, -, -, -, -, -, -, -, -, -, e0, e1, -⟩ := idx_facts t
  rw [← V_v10 m c]
  funext y
  show V m c main_v10 (((cfg0.win 6).blk t).view.emb y) = V m c main_v10 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1 + 1 * (y 1).val = (y 1).val; omega

/-- Row `p` of the input block at point `t` is row `128·t + p` of the input. -/
theorem blk0_step (c : Dev nD) (t : Fin cfg0.N) (p : Fin 128) (P : Fin 8192) (hP : P.val = 128 * t.val + p.val) (d : Fin 512) :
    stepAt (iblk m c 0 t : S128x30x512.Idx → EReal) p d = stepAt (m ((c : Thread nD τ).loc main_arg0)) P d := by
  obtain ⟨e0, e1, e2, -⟩ := idx_facts t
  funext s
  unfold stepAt
  by_cases hs : s < 30
  · rw [dif_pos hs, dif_pos hs]
    show V m c main_arg0 (((cfg0.win 0).blk t).view.emb (ix3 p ⟨s, hs⟩ d)) = _
    rw [V_main_arg0]
    refine congrArg _ (funext fun a => Fin.ext ?_)
    match a with
    | ⟨0, _⟩ => show win0_0.index t (0 : Fin 3) * 128 + 1 * p.val = P.val; omega
    | ⟨1, _⟩ => show win0_0.index t (1 : Fin 3) * 30 + 1 * s = s; omega
    | ⟨2, _⟩ => show win0_0.index t (2 : Fin 3) * 512 + 1 * d.val = d.val; omega
  · rw [dif_neg hs, dif_neg hs]

/-! ## The output array -/

/-- The `8192 × 1` output as one function of the argument arrays. -/
def outCol (c : Dev nD) : S8192x1.Idx → EReal := fun i =>
  headRow (fun d => stepAt (m ((c : Thread nD τ).loc main_arg0)) (i 0) d) (m ((c : Thread nD τ).loc main_arg1)) (m ((c : Thread nD τ).loc main_arg2))
    (wblock (m ((c : Thread nD τ).loc main_arg3)) 0) (wblock (m ((c : Thread nD τ).loc main_arg3)) 1) (wblock (m ((c : Thread nD τ).loc main_arg3)) 2) (w2col (m ((c : Thread nD τ).loc main_arg4)))

/-- What point `t` writes back is block `t` of `outCol`. -/
theorem flushed_eq (c : Dev nD) (t : Fin cfg0.N) :
    (dats m 0 c).flushed 7 t = ((cfg0.win 7).blk t).view.read (Elt Ideal) (outCol m c) := by
  obtain ⟨-, -, -, -, -, -, -, -, -, -, -, -, -, e0, e1⟩ := idx_facts t
  show (cfg0.win 7).cut (grid0.coords t) ((dats m 0 c).after 7 t) = _
  rw [after0_7]
  funext j
  obtain ⟨p, z, rfl⟩ : ∃ (p : Fin 128) (z : Fin 1), j = ix2 p z := ⟨j 0, j 1, eq_ix2 j⟩
  have hz : z = 0 := Fin.ext (by omega)
  subst hz
  refine (RowValue.out_row (iblk m c 0 t) (iblk m c 1 t) (iblk m c 2 t) (iblk m c 3 t) (iblk m c 4 t) (iblk m c 5 t) (iblk m c 6 t) p).trans ?_
  show _ = outCol m c (((cfg0.win 7).blk t).view.emb (ix2 p (0 : Fin 1)))
  unfold outCol
  have hp : 128 * t.val + p.val < 8192 := by have := t.isLt; have := p.isLt; have : cfg0.N = 64 := rfl; omega
  have hrow : (((cfg0.win 7).blk t).view.emb (ix2 p (0 : Fin 1))) 0 = (⟨128 * t.val + p.val, hp⟩ : Fin 8192) :=
    Fin.ext (by show win0_7.index t (0 : Fin 2) * 128 + 1 * p.val = 128 * t.val + p.val; omega)
  rw [hrow, blk1, blk2, blk3, blk4, blk5, blk6]
  have hE : (fun d => stepAt (iblk m c 0 t : S128x30x512.Idx → EReal) p d)
      = fun d => stepAt (m ((c : Thread nD τ).loc main_arg0)) (⟨128 * t.val + p.val, hp⟩ : Fin 8192) d :=
    funext fun d => blk0_step m c t p _ rfl d
  rw [hE]

/-- An index of the output is in point `t`'s block iff each coordinate is in the block's range. -/
theorem mem_blk (t : Fin cfg0.N) (i : S8192x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v11).slice (win0_7.rect t)).set ↔ _
  rw [View.set_slice_whole, Rect.mem_set_unit]
  exact Iff.rfl

/-- The 64 blocks tile the output: row `r` is in the block of point `r / 128`. -/
theorem cover (i : S8192x1.Idx) : ∃ t : Fin cfg0.N, (cfg0.win 7).flush t = true ∧ i ∈ ((cfg0.win 7).blk t).view.set := by
  have h0 : (i 0).val < 8192 := (i 0).isLt
  have h1 : (i 1).val < 1 := (i 1).isLt
  have hN : cfg0.N = 64 := rfl
  refine ⟨⟨(i 0).val / 128, by omega⟩, flush0_7 _, ?_⟩
  obtain ⟨-, -, -, -, -, -, -, -, -, -, -, -, -, e0, e1⟩ := idx_facts ⟨(i 0).val / 128, by omega⟩
  rw [mem_blk]
  intro a
  match a with
  | ⟨0, _⟩ =>
    show win0_7.index _ (0 : Fin 2) * 128 ≤ (i 0).val ∧ (i 0).val < win0_7.index _ (0 : Fin 2) * 128 + 128
    rw [e0]; show (i 0).val / 128 * 128 ≤ (i 0).val ∧ (i 0).val < (i 0).val / 128 * 128 + 128; omega
  | ⟨1, _⟩ =>
    show win0_7.index _ (1 : Fin 2) * 1 ≤ (i 1).val ∧ (i 1).val < win0_7.index _ (1 : Fin 2) * 1 + 1
    rw [e1]; omega

/-- The output array after the run. -/
theorem final (c : Dev nD) : (dats m 0 c).arrAt 7 cfg0.N = outCol m c :=
  (dats m 0 c).arrAt_eq_of_cover 7 (outCol m c) (fun t _ => flushed_eq m c t) cover

/-! ## The vector after the launch, and the run -/

/-- The result vector: the output column viewed as a vector. -/
theorem tail_eq (c : Dev nD) : Pipeline.afterTail₀ cfgs (dats m) 0 (V0 m) [hostOps1] c main_v12
    = result (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v12) = _
  after_results
  funext i
  obtain ⟨p, rfl⟩ : ∃ p : Fin 8192, i = ix1 p := ⟨i 0, eq_ix1 i⟩
  show shapeCast S8192 (Pipeline.withArrays (cfgs 0).spec c (V0 m c) (fun w => (dats m 0 c).arrAt w (cfgs 0).N) (Proc.devRef .tc main_v11))
      shapeCasts_S8192x1_S8192 (ix1 p) = _
  rw [shapeCast_apply _ shapeCasts_S8192x1_S8192 (ix1 p) (ix2 p (0 : Fin 1))
    (by rw [Shape.rowMajor_val_two, Shape.rowMajor_val_one]; show p.val * 1 + 0 = p.val; omega)]
  have hw := (Pipeline.withArrays_arr spec0 launch0.win.arr_inj c (V0 m c) (fun w => (dats m 0 c).arrAt w cfg0.N) 7).trans (final m c)
  refine (congrFun hw (ix2 p (0 : Fin 1))).trans ?_
  rfl

/-- The kernel's run, read: every weakly fair execution ends with the result vector at `Cert.ConvHead.result` of the
    argument arrays, and the argument arrays unchanged. -/
theorem run : θ_run defs (onTc (τ := τ) (main (F := Ideal))) ⟨m, fun _ => 0, ρ⟩ fun r => ∀ c : Dev nD,
      r.2.mem ((c.tc : Thread nD τ).loc main_v12)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.ArrayValue

end
-- ==== Proof.RefRun.lean ====
/-
  The reference's run, read back.

  @main of the reference is a straight line of 55 host operations with no kernel launch: every weakly fair execution
  ends with each buffer at the fold of the operations' results over the launch contents. The line is cut in two at its
  one three-operand operation, the concatenation of the three pooled feature blocks: the 48 operations before it
  compute the three blocks (each read back as its stage of the argument arrays), and the 7 from it on — the
  concatenation, the two transposes, the two products, `tanh` and the last reshape — are read back over ANY contents of
  the three blocks and of the two weight arrays. Put together, the result buffer ends at the last stage
  `val_main_v50` of the argument arrays, and the argument arrays end unchanged.
-/
import proofs.«151247_j79413945303391_1_alg».proof.Proof.Gen.ReferenceIdeal
import proofs.«151247_j79413945303391_1_alg».proof.Proof.RefRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The fold of a line of host operations over `l₁ ++ l₂` is the fold over `l₂` of the fold over `l₁`. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => after_append l₁ l₂ (op.result V)

/-- The 48 operations before the concatenation: the three pooled feature blocks. -/
abbrev opsA : List (HloOp τ sig (Elt F)) :=
  [ unary main_arg0 main_v0 ((transpose S8192x512x30 [0, 2, 1] · transposes_S8192x30x512_S8192x512x30_0_2_1) : (⟨S8192x30x512, .f32⟩ : BufTy).Contents (Elt F) → (⟨S8192x512x30, .f32⟩ : BufTy).Contents (Elt F)),
    nullary main_cst (constant S_ .f32 0x00000000#32),
    unary main_cst main_v1 (broadcastInDim S8192x512x28 ![] bcast_S_S8192x512x28 : (⟨S_, .f32⟩ : BufTy).Contents (Elt F) → (⟨S8192x512x28, .f32⟩ : BufTy).Contents (Elt F)),
    unary main_v0 main_v2 ((extractStridedSlice S8192x512x28 ![0, 0, 0] · slices_S8192x512x30_S8192x512x28_0_0_0) : (⟨S8192x512x30, .f32⟩ : BufTy).Contents (Elt F) → (⟨S8192x512x28, .f32⟩ : BufTy).Contents (Elt F)),
    unary main_arg1 main_v3 ((extractStridedSlice S1 ![0] · slices_S3_S1_0) : (⟨S3, .f32⟩ : BufTy).Contents (Elt F) → (⟨S1, .f32⟩ : BufTy).Contents (Elt F)),
    reshape main_v3 main_v4 rfl shapeCasts_S1_S_,
    unary main_v4 main_v5 (broadcastInDim S8192x512x28 ![] bcast_S_S8192x512x28 : (⟨S_, .f32⟩ : BufTy).Contents (Elt F) → (⟨S8192x512x28, .f32⟩ : BufTy).Contents (Elt F)),
    binary main_v2 main_v5 main_v6 (mulf : (⟨S8192x512x28, .f32⟩ : BufTy).Contents (Elt F) → (⟨S8192x512x28, .f32⟩ : BufTy).Contents (Elt F) → (⟨S8192x512x28, .f32⟩ : BufTy).Contents (Elt F)),
    binary main_v1 main_v6 main_v7 (addf : (⟨S8192x512x28, .f32⟩ : BufTy).Contents (Elt F) → (⟨S8192x512x28, .f32⟩ : BufTy).Contents (Elt F) → (⟨S8192x512x28, .f32⟩ : BufTy).Contents (Elt F)),
    unary main_v0 main_v8 ((extractStridedSlice S8192x512x28 ![0, 0, 1] · slices_S8192x512x30_S8192x512x28_0_0_1) : (⟨S8192x512x30, .f32⟩ : BufTy).Contents (Elt F) → (⟨S8192x512x28, .f32⟩ : BufTy).Contents (Elt F)),
    unary main_arg1 main_v9 ((extractStridedSlice S1 ![1] · slices_S3_S1_1) : (⟨S3, .f32⟩ : BufTy).Contents (Elt F) → (⟨S1, .f32⟩ : BufTy).Contents (Elt F)),
    reshape main_v9 main_v10 rfl shapeCasts_S1_S_,
    unary main_v10 main_v11 (broadcastInDim S8192x512x28 ![] bcast_S_S8192x512x28 : (⟨S_, .f32⟩ : BufTy).Contents (Elt F) → (⟨S8192x512x28, .f32⟩ : BufTy).Contents (Elt F)),
    binary main_v8 main_v11 main_v12 (mulf : (⟨S8192x512x28, .f32⟩ : BufTy).Contents (Elt F) → (⟨S8192x512x28, .f32⟩ : BufTy).Contents (Elt F) → (⟨S8192x512x28, .f32⟩ : BufTy).Contents (Elt F)),
    binary main_v7 main_v12 main_v13 (addf : (⟨S8192x512x28, .f32⟩ : BufTy).Contents (Elt F) → (⟨S8192x512x28, .f32⟩ : BufTy).Contents (Elt F) → (⟨S8192x512x28, .f32⟩ : BufTy).Contents (Elt F)),
    unary main_v0 main_v14 ((extractStridedSlice S8192x512x28 ![0, 0, 2] · slices_S8192x512x30_S8192x512x28_0_0_2) : (⟨S8192x512x30, .f32⟩ : BufTy).Contents (Elt F) → (⟨S8192x512x28, .f32⟩ : BufTy).Contents (Elt F)),
    unary main_arg1 main_v15 ((extractStridedSlice S1 ![2] · slices_S3_S1_2) : (⟨S3, .f32⟩ : BufTy).Contents (Elt F) → (⟨S1, .f32⟩ : BufTy).Contents (Elt F)),
    reshape main_v15 main_v16 rfl shapeCasts_S1_S_,
    unary main_v16 main_v17 (broadcastInDim S8192x512x28 ![] bcast_S_S8192x512x28 : (⟨S_, .f32⟩ : BufTy).Contents (Elt F) → (⟨S8192x512x28, .f32⟩ : BufTy).Contents (Elt F)),
    binary main_v14 main_v17 main_v18 (mulf : (⟨S8192x512x28, .f32⟩ : BufTy).Contents (Elt F) → (⟨S8192x512x28, .f32⟩ : BufTy).Contents (Elt F) → (⟨S8192x512x28, .f32⟩ : BufTy).Contents (Elt F)),
    binary main_v13 main_v18 main_v19 (addf : (⟨S8192x512x28, .f32⟩ : BufTy).Contents (Elt F) → (⟨S8192x512x28, .f32⟩ : BufTy).Contents (Elt F) → (⟨S8192x512x28, .f32⟩ : BufTy).Contents (Elt F)),
    nullary main_cst_0 (constant S_ .f32 0xFF800000#32),
    binary main_v19 main_cst_0 main_v20 ((fun x v => Host.reduce FloatOps.maximumf x v reducesTo_S8192x512x28_S8192x512_d2 h_S_) : (⟨S8192x512x28, .f32⟩ : BufTy).Contents (Elt F) → (⟨S_, .f32⟩ : BufTy).Contents (Elt F) → (⟨S8192x512, .f32⟩ : BufTy).Contents (Elt F)),
    unary main_v0 main_v21 ((extractStridedSlice S8192x512x7 ![0, 0, 23] · slices_S8192x512x30_S8192x512x7_0_0_23) : (⟨S8192x512x30, .f32⟩ : BufTy).Contents (Elt F) → (⟨S8192x512x7, .f32⟩ : BufTy).Contents (Elt F)),
    nullary main_cst_1 (constant S_ .f32 0x00000000#32),
    unary main_cst_1 main_v22 (broadcastInDim S8192x512x5 ![] bcast_S_S8192x512x5 : (⟨S_, .f32⟩ : BufTy).Contents (Elt F) → (⟨S8192x512x5, .f32⟩ : BufTy).Contents (Elt F)),
    unary main_v21 main_v23 ((extractStridedSlice S8192x512x5 ![0, 0, 0] · slices_S8192x512x7_S8192x512x5_0_0_0) : (⟨S8192x512x7, .f32⟩ : BufTy).Contents (Elt F) → (⟨S8192x512x5, .f32⟩ : BufTy).Contents (Elt F)),
    unary main_arg2 main_v24 ((extractStridedSlice S1 ![0] · slices_S3_S1_0) : (⟨S3, .f32⟩ : BufTy).Contents (Elt F) → (⟨S1, .f32⟩ : BufTy).Contents (Elt F)),
    reshape main_v24 main_v25 rfl shapeCasts_S1_S_,
    unary main_v25 main_v26 (broadcastInDim S8192x512x5 ![] bcast_S_S8192x512x5 : (⟨S_, .f32⟩ : BufTy).Contents (Elt F) → (⟨S8192x512x5, .f32⟩ : BufTy).Contents (Elt F)),
    binary main_v23 main_v26 main_v27 (mulf : (⟨S8192x512x5, .f32⟩ : BufTy).Contents (Elt F) → (⟨S8192x512x5, .f32⟩ : BufTy).Contents (Elt F) → (⟨S8192x512x5, .f32⟩ : BufTy).Contents (Elt F)),
    binary main_v22 main_v27 main_v28 (addf : (⟨S8192x512x5, .f32⟩ : BufTy).Contents (Elt F) → (⟨S8192x512x5, .f32⟩ : BufTy).Contents (Elt F) → (⟨S8192x512x5, .f32⟩ : BufTy).Contents (Elt F)),
    unary main_v21 main_v29 ((extractStridedSlice S8192x512x5 ![0, 0, 1] · slices_S8192x512x7_S8192x512x5_0_0_1) : (⟨S8192x512x7, .f32⟩ : BufTy).Contents (Elt F) → (⟨S8192x512x5, .f32⟩ : BufTy).Contents (Elt F)),
    unary main_arg2 main_v30 ((extractStridedSlice S1 ![1] · slices_S3_S1_1) : (⟨S3, .f32⟩ : BufTy).Contents (Elt F) → (⟨S1, .f32⟩ : BufTy).Contents (Elt F)),
    reshape main_v30 main_v31 rfl shapeCasts_S1_S_,
    unary main_v31 main_v32 (broadcastInDim S8192x512x5 ![] bcast_S_S8192x512x5 : (⟨S_, .f32⟩ : BufTy).Contents (Elt F) → (⟨S8192x512x5, .f32⟩ : BufTy).Contents (Elt F)),
    binary main_v29 main_v32 main_v33 (mulf : (⟨S8192x512x5, .f32⟩ : BufTy).Contents (Elt F) → (⟨S8192x512x5, .f32⟩ : BufTy).Contents (Elt F) → (⟨S8192x512x5, .f32⟩ : BufTy).Contents (Elt F)),
    binary main_v28 main_v33 main_v34 (addf : (⟨S8192x512x5, .f32⟩ : BufTy).Contents (Elt F) → (⟨S8192x512x5, .f32⟩ : BufTy).Contents (Elt F) → (⟨S8192x512x5, .f32⟩ : BufTy).Contents (Elt F)),
    unary main_v21 main_v35 ((extractStridedSlice S8192x512x5 ![0, 0, 2] · slices_S8192x512x7_S8192x512x5_0_0_2) : (⟨S8192x512x7, .f32⟩ : BufTy).Contents (Elt F) → (⟨S8192x512x5, .f32⟩ : BufTy).Contents (Elt F)),
    unary main_arg2 main_v36 ((extractStridedSlice S1 ![2] · slices_S3_S1_2) : (⟨S3, .f32⟩ : BufTy).Contents (Elt F) → (⟨S1, .f32⟩ : BufTy).Contents (Elt F)),
    reshape main_v36 main_v37 rfl shapeCasts_S1_S_,
    unary main_v37 main_v38 (broadcastInDim S8192x512x5 ![] bcast_S_S8192x512x5 : (⟨S_, .f32⟩ : BufTy).Contents (Elt F) → (⟨S8192x512x5, .f32⟩ : BufTy).Contents (Elt F)),
    binary main_v35 main_v38 main_v39 (mulf : (⟨S8192x512x5, .f32⟩ : BufTy).Contents (Elt F) → (⟨S8192x512x5, .f32⟩ : BufTy).Contents (Elt F) → (⟨S8192x512x5, .f32⟩ : BufTy).Contents (Elt F)),
    binary main_v34 main_v39 main_v40 (addf : (⟨S8192x512x5, .f32⟩ : BufTy).Contents (Elt F) → (⟨S8192x512x5, .f32⟩ : BufTy).Contents (Elt F) → (⟨S8192x512x5, .f32⟩ : BufTy).Contents (Elt F)),
    nullary main_cst_2 (constant S_ .f32 0xFF800000#32),
    binary main_v40 main_cst_2 main_v41 ((fun x v => Host.reduce FloatOps.maximumf x v reducesTo_S8192x512x5_S8192x512_d2 h_S_) : (⟨S8192x512x5, .f32⟩ : BufTy).Contents (Elt F) → (⟨S_, .f32⟩ : BufTy).Contents (Elt F) → (⟨S8192x512, .f32⟩ : BufTy).Contents (Elt F)),
    unary main_arg0 main_v42 ((extractStridedSlice S8192x1x512 ![0, 29, 0] · slices_S8192x30x512_S8192x1x512_0_29_0) : (⟨S8192x30x512, .f32⟩ : BufTy).Contents (Elt F) → (⟨S8192x1x512, .f32⟩ : BufTy).Contents (Elt F)),
    reshape main_v42 main_v43 rfl shapeCasts_S8192x1x512_S8192x512 ]

/-- The concatenation and the 6 operations after it. -/
abbrev opsB : List (HloOp τ sig (Elt F)) :=
  [ nary ![main_v20, main_v41, main_v43] main_v44 (fun u => concatenate S8192x1536 1 [⟨S8192x512, u 0⟩, ⟨S8192x512, u 1⟩, ⟨S8192x512, u 2⟩] concatenates_S8192x512_S8192x512_S8192x512_S8192x1536_d1),
    unary main_arg3 main_v45 ((transpose S1536x1024 [1, 0] · transposes_S1024x1536_S1536x1024_1_0) : (⟨S1024x1536, .f32⟩ : BufTy).Contents (Elt F) → (⟨S1536x1024, .f32⟩ : BufTy).Contents (Elt F)),
    binary main_v44 main_v45 main_v46 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    unary main_v46 main_v47 (Host.tanh : (⟨S8192x1024, .f32⟩ : BufTy).Contents (Elt F) → (⟨S8192x1024, .f32⟩ : BufTy).Contents (Elt F)),
    unary main_arg4 main_v48 ((transpose S1024x1 [1, 0] · transposes_S1x1024_S1024x1_1_0) : (⟨S1x1024, .f32⟩ : BufTy).Contents (Elt F) → (⟨S1024x1, .f32⟩ : BufTy).Contents (Elt F)),
    binary main_v47 main_v48 main_v49 ((fun l r => Host.dotGeneral dot_S8192x1024_S1024x1_S8192x1_1_0_0_1_n_n none l r) : (⟨S8192x1024, .f32⟩ : BufTy).Contents (Elt F) → (⟨S1024x1, .f32⟩ : BufTy).Contents (Elt F) → (⟨S8192x1, .f32⟩ : BufTy).Contents (Elt F)),
    reshape main_v49 main_v50 rfl shapeCasts_S8192x1_S8192 ]

set_option maxRecDepth 8192 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., nullary_bufs_sub .., unary_bufs_sub .., unary_bufs_sub .., unary_bufs_sub .., reshape_bufs_sub .., unary_bufs_sub .., binary_bufs_sub .., binary_bufs_sub .., unary_bufs_sub .., unary_bufs_sub .., reshape_bufs_sub .., unary_bufs_sub .., binary_bufs_sub .., binary_bufs_sub .., unary_bufs_sub .., unary_bufs_sub .., reshape_bufs_sub .., unary_bufs_sub .., binary_bufs_sub .., binary_bufs_sub .., nullary_bufs_sub .., binary_bufs_sub .., unary_bufs_sub .., nullary_bufs_sub .., unary_bufs_sub .., unary_bufs_sub .., unary_bufs_sub .., reshape_bufs_sub .., unary_bufs_sub .., binary_bufs_sub .., binary_bufs_sub .., unary_bufs_sub .., unary_bufs_sub .., reshape_bufs_sub .., unary_bufs_sub .., binary_bufs_sub .., binary_bufs_sub .., unary_bufs_sub .., unary_bufs_sub .., reshape_bufs_sub .., unary_bufs_sub .., binary_bufs_sub .., binary_bufs_sub .., nullary_bufs_sub .., binary_bufs_sub .., unary_bufs_sub .., reshape_bufs_sub ..⟩
theorem opsB_sub : (opsB : List (HloOp τ sig (Elt F))).Forall fun op => op.bufs ⊆ tcRefs τ sig :=
  ⟨nary_bufs_sub .., unary_bufs_sub .., binary_bufs_sub .., unary_bufs_sub .., unary_bufs_sub .., binary_bufs_sub .., reshape_bufs_sub ..⟩
theorem ops_sub : (opsA ++ opsB : List (HloOp τ sig (Elt F))).Forall fun op => op.bufs ⊆ tcRefs τ sig :=
  List.forall_append.mpr ⟨opsA_sub, opsB_sub⟩

variable (m : (ℓ : Loc nD τ sig) → Buf (Elt F) ℓ)

/-! ## The three feature blocks and the two weight arrays after the first 48 operations -/

set_option maxRecDepth 8192 in
set_option maxHeartbeats 2000000 in
theorem long_block (c : Dev nD) : after opsA (launchContents m c) (Proc.devRef .tc main_v20)
    = val_main_v20 (F := F) (m ((c.tc : Thread nD τ).loc main_arg0)) (m ((c.tc : Thread nD τ).loc main_arg1)) := by
  after_results_simp <;> rfl

set_option maxRecDepth 8192 in
set_option maxHeartbeats 2000000 in
theorem mid_block (c : Dev nD) : after opsA (launchContents m c) (Proc.devRef .tc main_v41)
    = val_main_v41 (F := F) (m ((c.tc : Thread nD τ).loc main_arg0)) (m ((c.tc : Thread nD τ).loc main_arg2)) := by
  after_results_simp <;> rfl

set_option maxRecDepth 8192 in
set_option maxHeartbeats 2000000 in
theorem short_block (c : Dev nD) : after opsA (launchContents m c) (Proc.devRef .tc main_v43)
    = val_main_v43 (F := F) (m ((c.tc : Thread nD τ).loc main_arg0)) := by
  after_results_simp <;> rfl

set_option maxRecDepth 8192 in
set_option maxHeartbeats 2000000 in
theorem kept3 (c : Dev nD) : after opsA (launchContents m c) (Proc.devRef .tc main_arg3) = m ((c.tc : Thread nD τ).loc main_arg3) := by
  after_results_simp <;> rfl

set_option maxRecDepth 8192 in
set_option maxHeartbeats 2000000 in
theorem kept4 (c : Dev nD) : after opsA (launchContents m c) (Proc.devRef .tc main_arg4) = m ((c.tc : Thread nD τ).loc main_arg4) := by
  after_results_simp <;> rfl

/-! ## The last 7 operations over any contents -/

set_option maxRecDepth 8192 in
theorem tail_result (W : Valuation τ sig (Elt F)) : after opsB W (Proc.devRef .tc main_v50)
    = shapeCast _ (Host.dotGeneral dot_S8192x1024_S1024x1_S8192x1_1_0_0_1_n_n none
        (Host.tanh (Host.dotGeneral dot_S8192x1536_S1536x1024_S8192x1024_1_0_0_1_n_n none
          (concatenate S8192x1536 1 [⟨S8192x512, W (Proc.devRef .tc main_v20)⟩, ⟨S8192x512, W (Proc.devRef .tc main_v41)⟩,
            ⟨S8192x512, W (Proc.devRef .tc main_v43)⟩] concatenates_S8192x512_S8192x512_S8192x512_S8192x1536_d1)
          (transpose S1536x1024 [1, 0] (W (Proc.devRef .tc main_arg3)) transposes_S1024x1536_S1536x1024_1_0)))
        (transpose S1024x1 [1, 0] (W (Proc.devRef .tc main_arg4)) transposes_S1x1024_S1024x1_1_0)) shapeCasts_S8192x1_S8192 := by
  after_results_simp <;> rfl

/-! ## The run -/

set_option maxRecDepth 8192 in
set_option maxHeartbeats 2000000 in
/-- On every device, for any float values, from any memory with zero counters: every weakly fair execution of @main
    terminates with the result at the last stage of the argument arrays and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v50)
        = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v50).trans (by
        rw [after_append, tail_result, long_block, mid_block, short_block, kept3, kept4]; rfl),
      (h c main_arg0).trans (by rw [after_append]; after_results_simp <;> rfl),
      (h c main_arg1).trans (by rw [after_append]; after_results_simp <;> rfl),
      (h c main_arg2).trans (by rw [after_append]; after_results_simp <;> rfl),
      (h c main_arg3).trans (by rw [after_append]; after_results_simp <;> rfl),
      (h c main_arg4).trans (by rw [after_append]; after_results_simp <;> rfl)⟩)
    (run_seq scopedRefs_eq scopedSems_eq defs main (fun _ => opsA ++ opsB) main_eq (fun _ => ops_sub) m ρ)

end Cert.ReferenceIdeal.RunValue

end
-- ==== Proof.LibLastFold.lean ====
/-
  The host's reduction over the last axis of a rank-three array, read at an entry.

  For a commutative and associative operation `f`, reducing an `A × B × C` array over its last axis from an initial value
  gives, at `(a, b)`, the fold of `f` from the initial value over the `C` entries `(a, b, k)`. The order of the fold does not
  matter, which is what commutativity and associativity are for; a maximum from `−∞` is the case met most.
-/
import Idealize.ShloMosaic.Lib.ValueIdx
import Idealize.ShloMosaic.PureOps.Ideal.Laws

noncomputable section

namespace Cert.Lib.LastFold

open Idealize.ShloMosaic Idealize.ShloMosaic.ValueIdx

/-- With the last coordinate `k` put back, the reduced index `(a, b)` is `(a, b, k)`. -/
theorem lift_last {A B C : Nat} (h : (⟨3, ![A, B, C]⟩ : Shape).Reduces [2] ⟨2, ![A, B]⟩) (a : Fin A) (b : Fin B) (k : Fin C) :
    h.lift (ix2 a b) k = ix3 a b k := by
  funext ax
  apply Fin.ext
  match ax with
  | ⟨0, _⟩ => rfl
  | ⟨1, _⟩ => rfl
  | ⟨2, _⟩ => rfl

/-- The host's reduction over the last axis of a rank-three array, with a commutative and associative operation, at
    `(a, b)`: the fold of the operation from the initial value over the entries `(a, b, k)`. -/
theorem hostFoldLast_apply {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce f x init h' hu (ix2 a b)
      = (Finset.univ : Finset (Fin C)).fold f (init (Shape.Idx.first hu)) fun k => x (ix3 a b k) := by
  rw [Host.reduce_eq_fold_single f x init h' h hu]
  have hf : (x ∘ h.lift (ix2 a b)) = fun k : Fin C => x (ix3 a b k) :=
    funext fun (k : Fin C) => congrArg x (lift_last h a b k)
  exact congrArg (fun g => Finset.fold f (init (Shape.Idx.first hu)) g (Finset.univ : Finset (Fin C))) hf

end Cert.Lib.LastFold

end
-- ==== Proof.RefValue.lean ====
/-
  The reference's result is the head, row by row.

  Read one operation at a time at the ideal values:
  * a filter weight is one entry of the weight vector, taken as a one-entry slice, viewed as a scalar and spread;
  * the transposed input, sliced along its last axis from `o`, holds at `(p, d, k)` the input's entry `(p, o + k, d)`,
    and adding the three products onto a zero array gives the filter's answer at position `k` — `0 + a = a` on every
    extended real;
  * the maximum over the last axis from `−∞` is the running maximum of the answers (`fold_max_eq_runMax`);
  * the three pooled blocks laid side by side meet the transposed first weight array in one sum over 1536 columns,
    which is the sum of its three thirds, each third a block against its 512 rows of the weight array (`sum_thirds`);
  * `tanh`, the product with the second weight array as a column, and the last reshape give row `p` of the result.
-/
import proofs.«151247_j79413945303391_1_alg».proof.Proof.RefRead
import proofs.«151247_j79413945303391_1_alg».proof.Proof.Spec
import proofs.«151247_j79413945303391_1_alg».proof.Proof.LibLastFold
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.ConvHead Cert.Lib

variable (x0 : (⟨S8192x30x512, .f32⟩ : BufTy).Contents (Elt Ideal)) (x1 x2 : (⟨S3, .f32⟩ : BufTy).Contents (Elt Ideal))
  (x3 : (⟨S1024x1536, .f32⟩ : BufTy).Contents (Elt Ideal)) (x4 : (⟨S1x1024, .f32⟩ : BufTy).Contents (Elt Ideal))

/-! ## The filter weights -/

/-- A one-entry vector viewed as a scalar is its entry. -/
theorem scalar_of (v : S1.Idx → EReal) (h : S1.ShapeCasts S_) (j : S_.Idx) : shapeCast S_ v h j = v (ix1 (0 : Fin 1)) := by
  refine shapeCast_apply v h j (ix1 (0 : Fin 1)) ?_
  rw [Shape.rowMajor_val_one]
  have hj : (S_.rowMajor j).val < 1 := (S_.rowMajor j).isLt
  show (0 : ℕ) = (S_.rowMajor j).val
  omega

theorem wl0 (j : S_.Idx) : val_main_v4 (F := Ideal) x1 j = x1 (ix1 0) := by
  unfold val_main_v4
  rw [scalar_of, val_main_v3_apply]
  exact congrArg x1 (funext fun a => Fin.ext (by match a with | ⟨0, _⟩ => rfl))
theorem wl1 (j : S_.Idx) : val_main_v10 (F := Ideal) x1 j = x1 (ix1 1) := by
  unfold val_main_v10
  rw [scalar_of, val_main_v9_apply]
  exact congrArg x1 (funext fun a => Fin.ext (by match a with | ⟨0, _⟩ => rfl))
theorem wl2 (j : S_.Idx) : val_main_v16 (F := Ideal) x1 j = x1 (ix1 2) := by
  unfold val_main_v16
  rw [scalar_of, val_main_v15_apply]
  exact congrArg x1 (funext fun a => Fin.ext (by match a with | ⟨0, _⟩ => rfl))
theorem wm0 (j : S_.Idx) : val_main_v25 (F := Ideal) x2 j = x2 (ix1 0) := by
  unfold val_main_v25
  rw [scalar_of, val_main_v24_apply]
  exact congrArg x2 (funext fun a => Fin.ext (by match a with | ⟨0, _⟩ => rfl))
theorem wm1 (j : S_.Idx) : val_main_v31 (F := Ideal) x2 j = x2 (ix1 1) := by
  unfold val_main_v31
  rw [scalar_of, val_main_v30_apply]
  exact congrArg x2 (funext fun a => Fin.ext (by match a with | ⟨0, _⟩ => rfl))
theorem wm2 (j : S_.Idx) : val_main_v37 (F := Ideal) x2 j = x2 (ix1 2) := by
  unfold val_main_v37
  rw [scalar_of, val_main_v36_apply]
  exact congrArg x2 (funext fun a => Fin.ext (by match a with | ⟨0, _⟩ => rfl))

/-! ## The filters' answers -/

/-- The long filter's answer at position `k`. -/
theorem conv_long (p : Fin 8192) (d : Fin 512) (k : Fin 28) :
    val_main_v19 (F := Ideal) x0 x1 (ix3 p d k) = tap (stepAt x0 p d) x1 0 k.val := by
  simp only [val_main_v19_apply, val_main_v13_apply, val_main_v7_apply, val_main_v18_apply, val_main_v12_apply,
    val_main_v6_apply, val_main_v1_apply, val_main_cst_apply, val_main_v2_apply, val_main_v8_apply, val_main_v14_apply,
    val_main_v0_apply, val_main_v5_apply, val_main_v11_apply, val_main_v17_apply, wl0, wl1, wl2,
    Ideal.addf_def, Ideal.mulf_def, Ideal.ofBits_def, Ideal.ofBits_zero_f32, zero_add]
  have ea := eq_stepAt x0 p d (0 + k.val) (idx_main_v0 (idx_main_v2 (ix3 p d k))) rfl (by show k.val = 0 + k.val; omega) rfl
  have eb := eq_stepAt x0 p d (0 + k.val + 1) (idx_main_v0 (idx_main_v8 (ix3 p d k))) rfl (by show 1 + k.val = 0 + k.val + 1; omega) rfl
  have ec := eq_stepAt x0 p d (0 + k.val + 2) (idx_main_v0 (idx_main_v14 (ix3 p d k))) rfl (by show 2 + k.val = 0 + k.val + 2; omega) rfl
  rw [ea, eb, ec]
  rfl

/-- The middle filter's answer at position `k`. -/
theorem conv_mid (p : Fin 8192) (d : Fin 512) (k : Fin 5) :
    val_main_v40 (F := Ideal) x0 x2 (ix3 p d k) = tap (stepAt x0 p d) x2 23 k.val := by
  simp only [val_main_v40_apply, val_main_v34_apply, val_main_v28_apply, val_main_v39_apply, val_main_v33_apply,
    val_main_v27_apply, val_main_v22_apply, val_main_cst_1_apply, val_main_v23_apply, val_main_v29_apply, val_main_v35_apply,
    val_main_v21_apply, val_main_v0_apply, val_main_v26_apply, val_main_v32_apply, val_main_v38_apply, wm0, wm1, wm2,
    Ideal.addf_def, Ideal.mulf_def, Ideal.ofBits_def, Ideal.ofBits_zero_f32, zero_add]
  have ea := eq_stepAt x0 p d (23 + k.val) (idx_main_v0 (idx_main_v21 (idx_main_v23 (ix3 p d k)))) rfl (by show 23 + k.val = 23 + k.val; rfl) rfl
  have eb := eq_stepAt x0 p d (23 + k.val + 1) (idx_main_v0 (idx_main_v21 (idx_main_v29 (ix3 p d k)))) rfl (by show 23 + (1 + k.val) = 23 + k.val + 1; omega) rfl
  have ec := eq_stepAt x0 p d (23 + k.val + 2) (idx_main_v0 (idx_main_v21 (idx_main_v35 (ix3 p d k)))) rfl (by show 23 + (2 + k.val) = 23 + k.val + 2; omega) rfl
  rw [ea, eb, ec]
  rfl

/-! ## The three pooled blocks -/

theorem neg_inf : Ideal.ofBits .f32 0xFF800000#32 = ⊥ := by simp [Ideal.ofBits, Ideal.ieee]

/-- The long block at `(p, d)`. -/
theorem long_eq (p : Fin 8192) (d : Fin 512) :
    val_main_v20 (F := Ideal) x0 x1 (ix2 p d) = runMax (tap (stepAt x0 p d) x1 0) 27 := by
  unfold val_main_v20
  rw [LastFold.hostFoldLast_apply FloatOps.maximumf _ _ reducesTo_S8192x512x28_S8192x512_d2 (by decide) h_S_ p d,
    val_main_cst_0_apply, Ideal.ofBits_def, neg_inf]
  have hf : (fun k : Fin 28 => val_main_v19 (F := Ideal) x0 x1 (ix3 p d k)) = fun k : Fin (27 + 1) => tap (stepAt x0 p d) x1 0 k.val :=
    funext (conv_long x0 x1 p d)
  rw [hf]
  exact fold_max_eq_runMax _ 27

/-- The middle block at `(p, d)`. -/
theorem mid_eq (p : Fin 8192) (d : Fin 512) :
    val_main_v41 (F := Ideal) x0 x2 (ix2 p d) = runMax (tap (stepAt x0 p d) x2 23) 4 := by
  unfold val_main_v41
  rw [LastFold.hostFoldLast_apply FloatOps.maximumf _ _ reducesTo_S8192x512x5_S8192x512_d2 (by decide) h_S_ p d,
    val_main_cst_2_apply, Ideal.ofBits_def, neg_inf]
  have hf : (fun k : Fin 5 => val_main_v40 (F := Ideal) x0 x2 (ix3 p d k)) = fun k : Fin (4 + 1) => tap (stepAt x0 p d) x2 23 k.val :=
    funext (conv_mid x0 x2 p d)
  rw [hf]
  exact fold_max_eq_runMax _ 4

/-- The short block at `(p, d)`: the last time step. -/
theorem short_eq (p : Fin 8192) (d : Fin 512) : val_main_v43 (F := Ideal) x0 (ix2 p d) = stepAt x0 p d 29 := by
  rw [val_main_v43_apply, val_main_v42_apply]
  refine eq_stepAt x0 p d 29 _ ?_ ?_ ?_
  · show (p.val * 512 + d.val) / 512 = p.val
    have := d.isLt; omega
  · show 29 + 0 = 29; rfl
  · show (p.val * 512 + d.val) % 512 = d.val
    have := d.isLt; omega

/-! ## The feature row: three blocks side by side -/

theorem feat_long (j : S8192x1536.Idx) (p : Fin 8192) (d : Fin 512) (h0 : (j 0).val = p.val) (h1 : (j 1).val = d.val) :
    val_main_v44 (F := Ideal) x0 x1 x2 j = val_main_v20 (F := Ideal) x0 x1 (ix2 p d) := by
  unfold val_main_v44
  exact concatenate_apply_piece (t := S8192x1536) (1 : Fin S8192x1536.rank) [⟨S8192x512, val_main_v20 (F := Ideal) x0 x1⟩, ⟨S8192x512, val_main_v41 (F := Ideal) x0 x2⟩, ⟨S8192x512, val_main_v43 (F := Ideal) x0⟩]
    concatenates_S8192x512_S8192x512_S8192x512_S8192x1536_d1 j 0 (by show 0 < 3; omega)
    S8192x512 _ rfl rfl 0 rfl (ix2 p d)
    (fun b hb => by match b with | ⟨0, _⟩ => exact h0.symm | ⟨1, _⟩ => exact absurd rfl hb) (by show 0 + d.val = (j 1).val; omega)

theorem feat_mid (j : S8192x1536.Idx) (p : Fin 8192) (d : Fin 512) (h0 : (j 0).val = p.val) (h1 : (j 1).val = 512 + d.val) :
    val_main_v44 (F := Ideal) x0 x1 x2 j = val_main_v41 (F := Ideal) x0 x2 (ix2 p d) := by
  unfold val_main_v44
  exact concatenate_apply_piece (t := S8192x1536) (1 : Fin S8192x1536.rank) [⟨S8192x512, val_main_v20 (F := Ideal) x0 x1⟩, ⟨S8192x512, val_main_v41 (F := Ideal) x0 x2⟩, ⟨S8192x512, val_main_v43 (F := Ideal) x0⟩]
    concatenates_S8192x512_S8192x512_S8192x512_S8192x1536_d1 j 1 (by show 1 < 3; omega)
    S8192x512 _ rfl rfl 512 rfl (ix2 p d)
    (fun b hb => by match b with | ⟨0, _⟩ => exact h0.symm | ⟨1, _⟩ => exact absurd rfl hb) (by show 512 + d.val = (j 1).val; omega)

theorem feat_short (j : S8192x1536.Idx) (p : Fin 8192) (d : Fin 512) (h0 : (j 0).val = p.val) (h1 : (j 1).val = 1024 + d.val) :
    val_main_v44 (F := Ideal) x0 x1 x2 j = val_main_v43 (F := Ideal) x0 (ix2 p d) := by
  unfold val_main_v44
  exact concatenate_apply_piece (t := S8192x1536) (1 : Fin S8192x1536.rank) [⟨S8192x512, val_main_v20 (F := Ideal) x0 x1⟩, ⟨S8192x512, val_main_v41 (F := Ideal) x0 x2⟩, ⟨S8192x512, val_main_v43 (F := Ideal) x0⟩]
    concatenates_S8192x512_S8192x512_S8192x512_S8192x1536_d1 j 2 (by show 2 < 3; omega)
    S8192x512 _ rfl rfl 1024 rfl (ix2 p d)
    (fun b hb => by match b with | ⟨0, _⟩ => exact h0.symm | ⟨1, _⟩ => exact absurd rfl hb) (by show 1024 + d.val = (j 1).val; omega)

/-! ## The result -/

/-- The reference's last stage is `Cert.ConvHead.result` of the argument arrays. -/
theorem ref_eq : val_main_v50 (F := Ideal) x0 x1 x2 x3 x4 = result x0 x1 x2 x3 x4 := by
  funext i
  obtain ⟨p, rfl⟩ : ∃ p : Fin 8192, i = ix1 p := ⟨i 0, eq_ix1 i⟩
  have e50 : idx_main_v50 (ix1 p) = ix2 p (0 : Fin 1) :=
    funext fun a => Fin.ext (by match a with | ⟨0, _⟩ => exact Nat.div_one _ | ⟨1, _⟩ => rfl)
  rw [val_main_v50_apply, e50, val_main_v49_apply]
  show _ = headRow (fun d => stepAt x0 p d) x1 x2 (wblock x3 0) (wblock x3 1) (wblock x3 2) (w2col x4)
  unfold headRow
  refine Finset.sum_congr rfl fun h _ => ?_
  have el : lidx_main_v49 (ix2 p (0 : Fin 1)) h = ix2 p h :=
    funext fun a => Fin.ext (by match a with | ⟨0, _⟩ => rfl | ⟨1, _⟩ => rfl)
  have er : ridx_main_v49 (ix2 p (0 : Fin 1)) h = ix2 h (0 : Fin 1) :=
    funext fun a => Fin.ext (by match a with | ⟨0, _⟩ => rfl | ⟨1, _⟩ => rfl)
  rw [el, er, val_main_v47_apply, val_main_v48_apply, Ideal.hostUnary_tanh_def, val_main_v46_apply, sum_thirds]
  refine congrArg₂ (· * ·) (congrArg Ideal.tanh (congrArg₂ (· + ·) (congrArg₂ (· + ·) ?_ ?_) ?_)) ?_
  · refine Finset.sum_congr rfl fun d _ => congrArg₂ (· * ·) ?_ ?_
    · exact (feat_long x0 x1 x2 _ p d rfl rfl).trans (long_eq x0 x1 p d)
    · refine (val_main_v45_apply x3 _).trans (congrArg x3 (funext fun a => Fin.ext ?_))
      match a with
      | ⟨0, _⟩ => rfl
      | ⟨1, _⟩ => show d.val = 512 * 0 + d.val; omega
  · refine Finset.sum_congr rfl fun d _ => congrArg₂ (· * ·) ?_ ?_
    · exact (feat_mid x0 x1 x2 _ p d rfl rfl).trans (mid_eq x0 x2 p d)
    · refine (val_main_v45_apply x3 _).trans (congrArg x3 (funext fun a => Fin.ext ?_))
      match a with
      | ⟨0, _⟩ => rfl
      | ⟨1, _⟩ => show 512 + d.val = 512 * 1 + d.val; omega
  · refine Finset.sum_congr rfl fun d _ => congrArg₂ (· * ·) ?_ ?_
    · exact (feat_short x0 x1 x2 _ p d rfl rfl).trans (short_eq x0 p d)
    · refine (val_main_v45_apply x3 _).trans (congrArg x3 (funext fun a => Fin.ext ?_))
      match a with
      | ⟨0, _⟩ => rfl
      | ⟨1, _⟩ => show 1024 + d.val = 512 * 2 + d.val; omega
  · exact congrArg x4 (funext fun a => Fin.ext (by match a with | ⟨0, _⟩ => rfl | ⟨1, _⟩ => rfl))

end Cert.ReferenceIdeal.RefValue

end
-- ==== Proof.lean ====
/-
  The claim: the convolution-and-pooling head as a gridded kernel against its array-language reference.

  Both programs compute, for each of 8192 rows, three pooled feature rows of width 512 from a `30 × 512` slab — the
  maximum over 28 positions of a three-tap filter along the time axis, the maximum over 5 positions of a second
  three-tap filter on the last 7 time steps, and the last time step —, multiply them with a `1024 × 1536` weight
  array, apply `tanh`, and multiply with a `1 × 1024` weight row. The kernel pools step by step with a running maximum
  and multiplies the three feature rows with the three `512`-row blocks of the transposed weight array apart; the
  reference pools by a reduction from `−∞`, lays the three feature rows side by side and multiplies once. On the
  extended reals the two are one function, `Cert.ConvHead.result`: a maximum is commutative and associative with
  `−∞` neutral, a sum over 1536 indices is the sum of its three thirds, adding onto zero changes nothing, and
  narrowing to bf16 is the identity. None of these laws needs a finite entry, so the precondition is never opened.

  The three frames: the two kernel programs' are the generated frame certificates; the reference has no launch, and
  its frame is its run with the result dropped. The idealization rewrote nothing, so `preserves` is trivial.
-/
import proofs.«151247_j79413945303391_1_alg».proof.Defs
import proofs.«151247_j79413945303391_1_alg».proof.Proof.Gen.Kernel
import proofs.«151247_j79413945303391_1_alg».proof.Proof.Gen.Kernel.Skeleton
import proofs.«151247_j79413945303391_1_alg».proof.Proof.Gen.Kernel.Launch
import proofs.«151247_j79413945303391_1_alg».proof.Proof.Gen.Kernel.Points
import proofs.«151247_j79413945303391_1_alg».proof.Proof.Gen.Kernel.Frame
import proofs.«151247_j79413945303391_1_alg».proof.Proof.Gen.KernelIdeal
import proofs.«151247_j79413945303391_1_alg».proof.Proof.Gen.KernelIdeal.Skeleton
import proofs.«151247_j79413945303391_1_alg».proof.Proof.Gen.KernelIdeal.Launch
import proofs.«151247_j79413945303391_1_alg».proof.Proof.Gen.KernelIdeal.Points
import proofs.«151247_j79413945303391_1_alg».proof.Proof.Gen.KernelIdeal.Frame
import proofs.«151247_j79413945303391_1_alg».proof.Proof.Gen.ReferenceIdeal
import proofs.«151247_j79413945303391_1_alg».proof.Proof.Gen.Pre_finite_inputs
import proofs.«151247_j79413945303391_1_alg».proof.Proof.KernelValue
import proofs.«151247_j79413945303391_1_alg».proof.Proof.RefRun
import proofs.«151247_j79413945303391_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- Both idealized programs end with the result vector at `Cert.ConvHead.result` of arguments that agree. -/
theorem algebraic : Cert.algebraic_KernelIdeal_ReferenceIdeal := by
  intro m ρ m' ρ' _ hagree
  refine ⟨fun c => Cert.ConvHead.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.RunValue.run (F := Ideal) m' ρ')
  rw [Cert.ReferenceIdeal.RefValue.ref_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
